-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S5x16384x1024 : Shape := ⟨3, ![5, 16384, 1024]⟩
abbrev S5x16384 : Shape := ⟨2, ![5, 16384]⟩
abbrev S512x1024 : Shape := ⟨2, ![512, 1024]⟩
abbrev S512 : Shape := ⟨1, ![512]⟩
abbrev S_ : Shape := ⟨0, ![]⟩

class Facts : Prop where
  bcast_S_S5x16384x1024 : S_.BroadcastsInDim S5x16384x1024 (![] : Fin 0 → Fin S5x16384x1024.rank)
  reducesTo_S5x16384x1024_S_d0_1_2 : S5x16384x1024.ReducesTo [0, 1, 2] S_
  h_S_ : 0 < S_.numel
  bcast_S_S5x16384 : S_.BroadcastsInDim S5x16384 (![] : Fin 0 → Fin S5x16384.rank)
  reducesTo_S5x16384_S_d0_1 : S5x16384.ReducesTo [0, 1] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S512x1024 .f32) (main_arg5 : FVec F S512 .f32) (main_arg6 : FVec F S512x1024 .f32) (main_arg7 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x1024 .f32 := Host.absf main_arg4
  let main_cst_6 : FVec F S_ .f32 := constant S_ .f32 0x7F800000#32
  let main_v20 : FVec F S512x1024 .f32 := broadcastInDim S512x1024 ![] bcast_S_S512x1024 main_cst_6
  let main_v21 : IVec S512x1024 1 := cmpf .olt main_v19 main_v20
  let main_c_7 : IVec S_ 1 := constantI S_ 1 1#1
  let main_v22 : IVec S_ 1 := (fun x v => Host.reduce IntOp.andi x v reducesTo_S512x1024_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x1024 .f32 := Host.absf main_arg6
  let main_cst_10 : FVec F S_ .f32 := constant S_ .f32 0x7F800000#32
  let main_v30 : FVec F S512x1024 .f32 := broadcastInDim S512x1024 ![] bcast_S_S512x1024 main_cst_10
  let main_v31 : IVec S512x1024 1 := cmpf .olt main_v29 main_v30
  let main_c_11 : IVec S_ 1 := constantI S_ 1 1#1
  let main_v32 : IVec S_ 1 := (fun x v => Host.reduce IntOp.andi x v reducesTo_S512x1024_S_d0_1 h_S_) main_v31 main_c_11
  let main_v33 : IVec S_ 1 := andi main_v28 main_v32
  fn_part2 (F := F) main_arg7 main_v33

def fn {F : FTy → Type} [FloatOps F] (main_arg0 : FVec F S5x16384x1024 .f32) (main_arg1 : FVec F S5x16384 .f32) (main_arg2 : FVec F S512x1024 .f32) (main_arg3 : FVec F S512 .f32) (main_arg4 : FVec F S512x1024 .f32) (main_arg5 : FVec F S512 .f32) (main_arg6 : FVec F S512x1024 .f32) (main_arg7 : FVec F S512 .f32) : IVec S_ 1 :=
  let main_v0 : FVec F S5x16384x1024 .f32 := Host.absf main_arg0
  let main_cst : FVec F S_ .f32 := constant S_ .f32 0x7F800000#32
  let main_v1 : FVec F S5x16384x1024 .f32 := broadcastInDim S5x16384x1024 ![] bcast_S_S5x16384x1024 main_cst
  let main_v2 : IVec S5x16384x1024 1 := cmpf .olt main_v0 main_v1
  let main_c : IVec S_ 1 := constantI S_ 1 1#1
  let main_v3 : IVec S_ 1 := (fun x v => Host.reduce IntOp.andi x v reducesTo_S5x16384x1024_S_d0_1_2 h_S_) main_v2 main_c
  let main_v4 : FVec F S5x16384 .f32 := Host.absf main_arg1
  let main_cst_0 : FVec F S_ .f32 := constant S_ .f32 0x7F800000#32
  let main_v5 : FVec F S5x16384 .f32 := broadcastInDim S5x16384 ![] bcast_S_S5x16384 main_cst_0
  let main_v6 : IVec S5x16384 1 := cmpf .olt main_v4 main_v5
  let main_c_1 : IVec S_ 1 := constantI S_ 1 1#1
  let main_v7 : IVec S_ 1 := (fun x v => Host.reduce IntOp.andi x v reducesTo_S5x16384_S_d0_1 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S5x16384x1024 : Shape := ⟨3, ![5, 16384, 1024]⟩
abbrev S5x16384 : Shape := ⟨2, ![5, 16384]⟩
abbrev S512x1024 : Shape := ⟨2, ![512, 1024]⟩
abbrev S512 : Shape := ⟨1, ![512]⟩
abbrev S1024x512 : Shape := ⟨2, ![1024, 512]⟩
abbrev S1024x1024 : Shape := ⟨2, ![1024, 1024]⟩
abbrev S1024 : Shape := ⟨1, ![1024]⟩
abbrev S16384x5 : Shape := ⟨2, ![16384, 5]⟩
abbrev S16384x2560 : Shape := ⟨2, ![16384, 2560]⟩
abbrev S5x256x1024 : Shape := ⟨3, ![5, 256, 1024]⟩
abbrev S256x5 : Shape := ⟨2, ![256, 5]⟩
abbrev S256x2560 : Shape := ⟨2, ![256, 2560]⟩
abbrev S1x1024 : Shape := ⟨2, ![1, 1024]⟩
abbrev S1280x1024 : Shape := ⟨2, ![1280, 1024]⟩
abbrev S1x256x512 : Shape := ⟨3, ![1, 256, 512]⟩
abbrev S256x512 : Shape := ⟨2, ![256, 512]⟩
abbrev S256x1 : Shape := ⟨2, ![256, 1]⟩
abbrev S256 : Shape := ⟨1, ![256]⟩

abbrev nBuf : Space → Nat
  | .hbm => 15
  | .vmem => 8
  | .smem => 0
  | _ => 0

abbrev bufTy : (tb : Table) → Fin (tcTables nBuf tb) → BufTy
  | .hbm, ⟨0, _⟩ => ⟨S5x16384x1024, .f32⟩
  | .hbm, ⟨1, _⟩ => ⟨S5x16384, .f32⟩
  | .hbm, ⟨2, _⟩ => ⟨S512x1024, .f32⟩
  | .hbm, ⟨3, _⟩ => ⟨S512, .f32⟩
  | .hbm, ⟨4, _⟩ => ⟨S512x1024, .f32⟩
  | .hbm, ⟨5, _⟩ => ⟨S512, .f32⟩
  | .hbm, ⟨6, _⟩ => ⟨S512x1024, .f32⟩
  | .hbm, ⟨7, _⟩ => ⟨S512, .f32⟩
  | .hbm, ⟨8, _⟩ => ⟨S1024x512, .f32⟩
  | .hbm, ⟨9, _⟩ => ⟨S1024x512, .f32⟩
  | .hbm, ⟨10, _⟩ => ⟨S1024x1024, .f32⟩
  | .hbm, ⟨11, _⟩ => ⟨S1024x1024, .bf16⟩
  | .hbm, ⟨12, _⟩ => ⟨S1024, .f32⟩
  | .hbm, ⟨13, _⟩ => ⟨S16384x5, .f32⟩
  | .hbm, ⟨14, _⟩ => ⟨S16384x2560, .f32⟩
  | .local _ .vmem, ⟨0, _⟩ => ⟨S5x256x1024, .f32⟩
  | .local _ .vmem, ⟨1, _⟩ => ⟨S5x256x1024, .f32⟩
  | .local _ .vmem, ⟨2, _⟩ => ⟨S256x5, .f32⟩
  | .local _ .vmem, ⟨3, _⟩ => ⟨S256x5, .f32⟩
  | .local _ .vmem, ⟨4, _⟩ => ⟨S1024x1024, .bf16⟩
  | .local _ .vmem, ⟨5, _⟩ => ⟨S1024, .f32⟩
  | .local _ .vmem, ⟨6, _⟩ => ⟨S256x2560, .f32⟩
  | .local _ .vmem, ⟨7, _⟩ => ⟨S256x2560, .f32⟩
  | _, _ => ⟨S5x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S512x1024_S1024x512_1_0 : S512x1024.Transposes [1, 0] S1024x512
  concatenates_S1024x512_S1024x512_S1024x1024_d1 : Shape.Concatenates [S1024x512, S1024x512] S1024x1024 1
  bitsLt_bf16_f32 : FTy.bits .bf16 < FTy.bits .f32
  concatenates_S512_S512_S1024_d0 : Shape.Concatenates [S512, S512] S1024 0
  transposes_S5x16384_S16384x5_1_0 : S5x16384.Transposes [1, 0] S16384x5
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1024 : S1024.ShapeCasts S1024
  shapeCasts_S1024_S1x1024 : S1024.ShapeCasts S1x1024
  inb_S5x256x1024_S5x256x1024_0_0_0 : ∀ a, (![0, 0, 0] : Fin 3 → Nat) a + S5x256x1024.size a ≤ S5x256x1024.size a
  h_S5x256x1024 : 0 < S5x256x1024.numel
  shapeCasts_S5x256x1024_S1280x1024 : S5x256x1024.ShapeCasts S1280x1024
  broadcasts_S1x1024_S1280x1024 : S1x1024.Broadcasts S1280x1024
  shapeCasts_S1280x1024_S5x256x1024 : S1280x1024.ShapeCasts S5x256x1024
  inb_S256x5_S256x5_0_0 : ∀ a, (![0, 0] : Fin 2 → Nat) a + S256x5.size a ≤ S256x5.size a
  h_S256x5 : 0 < S256x5.numel
  shapeCasts_S256x5_S256x5 : S256x5.ShapeCasts S256x5
  slices_S5x256x1024_o0_0_0_S1x256x512 : S5x256x1024.Slices ![0, 0, 0] S1x256x512
  shapeCasts_S1x256x512_S256x512 : S1x256x512.ShapeCasts S256x512
  slices_S5x256x1024_o1_0_0_S1x256x512 : S5x256x1024.Slices ![1, 0, 0] S1x256x512
  slices_S5x256x1024_o2_0_0_S1x256x512 : S5x256x1024.Slices ![2, 0, 0] S1x256x512
  slices_S5x256x1024_o3_0_0_S1x256x512 : S5x256x1024.Slices ![3, 0, 0] S1x256x512
  slices_S5x256x1024_o4_0_0_S1x256x512 : S5x256x1024.Slices ![4, 0, 0] S1x256x512
  slices_S5x256x1024_o0_0_512_S1x256x512 : S5x256x1024.Slices ![0, 0, 512] S1x256x512
  slices_S5x256x1024_o1_0_512_S1x256x512 : S5x256x1024.Slices ![1, 0, 512] S1x256x512
  slices_S5x256x1024_o2_0_512_S1x256x512 : S5x256x1024.Slices ![2, 0, 512] S1x256x512
  slices_S5x256x1024_o3_0_512_S1x256x512 : S5x256x1024.Slices ![3, 0, 512] S1x256x512
  slices_S5x256x1024_o4_0_512_S1x256x512 : S5x256x1024.Slices ![4, 0, 512] S1x256x512
  slices_S256x5_o0_0_S256x1 : S256x5.Slices ![0, 0] S256x1
  slices_S256x5_o0_1_S256x1 : S256x5.Slices ![0, 1] S256x1
  slices_S256x5_o0_2_S256x1 : S256x5.Slices ![0, 2] S256x1
  slices_S256x5_o0_3_S256x1 : S256x5.Slices ![0, 3] S256x1
  slices_S256x5_o0_4_S256x1 : S256x5.Slices ![0, 4] S256x1
  reduces_S256x512_S256 : S256x512.Reduces [1] S256
  shapeCasts_S256_S256x1 : S256.ShapeCasts S256x1
  broadcasts_S256x1_S256x512 : S256x1.Broadcasts S256x512
  inb_S256x2560_S256x512_0_0 : ∀ a, (![0, 0] : Fin 2 → Nat) a + S256x512.size a ≤ S256x2560.size a
  h_S256x512 : 0 < S256x512.numel
  inb_S256x2560_S256x512_0_512 : ∀ a, (![0, 512] : Fin 2 → Nat) a + S256x512.size a ≤ S256x2560.size a
  inb_S256x2560_S256x512_0_1024 : ∀ a, (![0, 1024] : Fin 2 → Nat) a + S256x512.size a ≤ S256x2560.size a
  inb_S256x2560_S256x512_0_1536 : ∀ a, (![0, 1536] : Fin 2 → Nat) a + S256x512.size a ≤ S256x2560.size a
  inb_S256x2560_S256x512_0_2048 : ∀ a, (![0, 2048] : Fin 2 → Nat) a + S256x512.size a ≤ S256x2560.size a
  dot_S1280x1024_S1024x1024_S1280x1024_1_0_0_1_n_n_wf : DotDims.WF S1280x1024 S1024x1024 S1280x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5x256x1024.size a ≤ S5x16384x1024.size a
  hwx0_0 : ∀ i : grid0.Coords, EltTy.bits .f32 = 32 ∨ (Rect.block (s := S5x16384x1024) S5x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x5.size a ≤ S16384x5.size a
  hwx0_1 : ∀ i : grid0.Coords, EltTy.bits .f32 = 32 ∨ (Rect.block (s := S16384x5) S256x5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2560.size a ≤ S16384x2560.size a
  hwx0_4 : ∀ i : grid0.Coords, EltTy.bits .f32 = 32 ∨ (Rect.block (s := S16384x2560) S256x2560.size (cc0_transform_4 i) (hinb0_4 i)).WholeWords (EltTy.packing .f32)

variable [Facts₀]

def dot_S1280x1024_S1024x1024_S1280x1024_1_0_0_1_n_n : DotDims S1280x1024 S1024x1024 S1280x1024 where
  lhsContracting := [1]
  rhsContracting := [0]
  lhsNonContracting := [0]
  rhsNonContracting := [1]
  lhsBatch := []
  rhsBatch := []
  wf := dot_S1280x1024_S1024x1024_S1280x1024_1_0_0_1_n_n_wf

abbrev win0_0 : Pipeline.Window sig grid0 :=
  Pipeline.Window.ofSpec (Memref.whole main_arg0) S5x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S256x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S256x2560.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S5x16384x1024 : Shape := ⟨3, ![5, 16384, 1024]⟩
abbrev S5x16384 : Shape := ⟨2, ![5, 16384]⟩
abbrev S512x1024 : Shape := ⟨2, ![512, 1024]⟩
abbrev S512 : Shape := ⟨1, ![512]⟩
abbrev S512x5x16384 : Shape := ⟨3, ![512, 5, 16384]⟩
abbrev S16384x5x512 : Shape := ⟨3, ![16384, 5, 512]⟩
abbrev S1x1x512 : Shape := ⟨3, ![1, 1, 512]⟩
abbrev S16384x5 : Shape := ⟨2, ![16384, 5]⟩
abbrev S16384x5x5 : Shape := ⟨3, ![16384, 5, 5]⟩
abbrev S16384x5x1 : Shape := ⟨3, ![16384, 5, 1]⟩
abbrev S16384x1x5 : Shape := ⟨3, ![16384, 1, 5]⟩
abbrev S_ : Shape := ⟨0, ![]⟩
abbrev S16384x2560 : Shape := ⟨2, ![16384, 2560]⟩

abbrev nBuf : Space → Nat
  | .hbm => 45
  | .vmem => 0
  | .smem => 0
  | _ => 0

abbrev bufTy : (tb : Table) → Fin (tcTables nBuf tb) → BufTy
  | .hbm, ⟨0, _⟩ => ⟨S5x16384x1024, .f32⟩
  | .hbm, ⟨1, _⟩ => ⟨S5x16384, .f32⟩
  | .hbm, ⟨2, _⟩ => ⟨S512x1024, .f32⟩
  | .hbm, ⟨3, _⟩ => ⟨S512, .f32⟩
  | .hbm, ⟨4, _⟩ => ⟨S512x1024, .f32⟩
  | .hbm, ⟨5, _⟩ => ⟨S512, .f32⟩
  | .hbm, ⟨6, _⟩ => ⟨S512x1024, .f32⟩
  | .hbm, ⟨7, _⟩ => ⟨S512, .f32⟩
  | .hbm, ⟨8, _⟩ => ⟨S512x5x16384, .f32⟩
  | .hbm, ⟨9, _⟩ => ⟨S16384x5x512, .f32⟩
  | .hbm, ⟨10, _⟩ => ⟨S1x1x512, .f32⟩
  | .hbm, ⟨11, _⟩ => ⟨S16384x5x512, .f32⟩
  | .hbm, ⟨12, _⟩ => ⟨S16384x5x512, .f32⟩
  | .hbm, ⟨13, _⟩ => ⟨S512x5x16384, .f32⟩
  | .hbm, ⟨14, _⟩ => ⟨S16384x5x512, .f32⟩
  | .hbm, ⟨15, _⟩ => ⟨S1x1x512, .f32⟩
  | .hbm, ⟨16, _⟩ => ⟨S16384x5x512, .f32⟩
  | .hbm, ⟨17, _⟩ => ⟨S16384x5x512, .f32⟩
  | .hbm, ⟨18, _⟩ => ⟨S16384x5, .f32⟩
  | .hbm, ⟨19, _⟩ => ⟨S16384x5x5, .f32⟩
  | .hbm, ⟨20, _⟩ => ⟨S16384x5x1, .f32⟩
  | .hbm, ⟨21, _⟩ => ⟨S16384x1x5, .f32⟩
  | .hbm, ⟨22, _⟩ => ⟨S16384x5x5, .f32⟩
  | .hbm, ⟨23, _⟩ => ⟨S16384x5x5, .f32⟩
  | .hbm, ⟨24, _⟩ => ⟨S16384x5x5, .f32⟩
  | .hbm, ⟨25, _⟩ => ⟨S_, .f32⟩
  | .hbm, ⟨26, _⟩ => ⟨S16384x5x5, .f32⟩
  | .hbm, ⟨27, _⟩ => ⟨S16384x5x5, .f32⟩
  | .hbm, ⟨28, _⟩ => ⟨S16384x5x5, .f32⟩
  | .hbm, ⟨29, _⟩ => ⟨S_, .f32⟩
  | .hbm, ⟨30, _⟩ => ⟨S16384x5, .f32⟩
  | .hbm, ⟨31, _⟩ => ⟨S_, .f32⟩
  | .hbm, ⟨32, _⟩ => ⟨S16384x5, .f32⟩
  | .hbm, ⟨33, _⟩ => ⟨S16384x5, .f32⟩
  | .hbm, ⟨34, _⟩ => ⟨S16384x5x1, .f32⟩
  | .hbm, ⟨35, _⟩ => ⟨S16384x5x5, .f32⟩
  | .hbm, ⟨36, _⟩ => ⟨S16384x5x5, .f32⟩
  | .hbm, ⟨37, _⟩ => ⟨S16384x5x5, .f32⟩
  | .hbm, ⟨38, _⟩ => ⟨S_, .f32⟩
  | .hbm, ⟨39, _⟩ => ⟨S16384x5, .f32⟩
  | .hbm, ⟨40, _⟩ => ⟨S16384x5x1, .f32⟩
  | .hbm, ⟨41, _⟩ => ⟨S16384x5x5, .f32⟩
  | .hbm, ⟨42, _⟩ => ⟨S16384x5x5, .f32⟩
  | .hbm, ⟨43, _⟩ => ⟨S16384x5x512, .f32⟩
  | .hbm, ⟨44, _⟩ => ⟨S16384x2560, .f32⟩
  | _, _ => ⟨S5x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]

class Facts₀ : Prop where
  transposes_S512x5x16384_S16384x5x512_2_1_0 : S512x5x16384.Transposes [2, 1, 0] S16384x5x512
  bcast_S512_S1x1x512_2 : S512.BroadcastsInDim S1x1x512 (![2] : Fin 1 → Fin S1x1x512.rank)
  bcast_S1x1x512_S16384x5x512_0_1_2 : S1x1x512.BroadcastsInDim S16384x5x512 (![0, 1, 2] : Fin 3 → Fin S16384x5x512.rank)
  transposes_S5x16384_S16384x5_1_0 : S5x16384.Transposes [1, 0] S16384x5
  bcast_S16384x5_S16384x5x1_0_1 : S16384x5.BroadcastsInDim S16384x5x1 (![0, 1] : Fin 2 → Fin S16384x5x1.rank)
  bcast_S16384x5_S16384x1x5_0_2 : S16384x5.BroadcastsInDim S16384x1x5 (![0, 2] : Fin 2 → Fin S16384x1x5.rank)
  bcast_S16384x5x1_S16384x5x5_0_1_2 : S16384x5x1.BroadcastsInDim S16384x5x5 (![0, 1, 2] : Fin 3 → Fin S16384x5x5.rank)
  bcast_S16384x1x5_S16384x5x5_0_1_2 : S16384x1x5.BroadcastsInDim S16384x5x5 (![0, 1, 2] : Fin 3 → Fin S16384x5x5.rank)
  bcast_S_S16384x5x5 : S_.BroadcastsInDim S16384x5x5 (![] : Fin 0 → Fin S16384x5x5.rank)
  reducesTo_S16384x5x5_S16384x5_d2 : S16384x5x5.ReducesTo [2] S16384x5
  h_S_ : 0 < S_.numel
  bcast_S_S16384x5 : S_.BroadcastsInDim S16384x5 (![] : Fin 0 → Fin S16384x5.rank)
  shapeCasts_S16384x5x512_S16384x2560 : S16384x5x512.ShapeCasts S16384x2560
  dot_S512x1024_S5x16384x1024_S512x5x16384_1_2_0_01_n_n_wf : DotDims.WF S512x1024 S5x16384x1024 S512x5x16384 [1] [2] [0] [0, 1] [] []
  dot_S16384x5x512_S16384x5x512_S16384x5x5_2_2_1_1_0_0_wf : DotDims.WF S16384x5x512 S16384x5x512 S16384x5x5 [2] [2] [1] [1] [0] [0]
  dot_S16384x5x5_S16384x5x512_S16384x5x512_2_1_1_2_0_0_wf : DotDims.WF S16384x5x5 S16384x5x512 S16384x5x512 [2] [1] [1] [2] [0] [0]

variable [Facts₀]

def dot_S512x1024_S5x16384x1024_S512x5x16384_1_2_0_01_n_n : DotDims S512x1024 S5x16384x1024 S512x5x16384 where
  lhsContracting := [1]
  rhsContracting := [2]
  lhsNonContracting := [0]
  rhsNonContracting := [0, 1]
  lhsBatch := []
  rhsBatch := []
  wf := dot_S512x1024_S5x16384x1024_S512x5x16384_1_2_0_01_n_n_wf
def dot_S16384x5x512_S16384x5x512_S16384x5x5_2_2_1_1_0_0 : DotDims S16384x5x512 S16384x5x512 S16384x5x5 where
  lhsContracting := [2]
  rhsContracting := [2]
  lhsNonContracting := [1]
  rhsNonContracting := [1]
  lhsBatch := [0]
  rhsBatch := [0]
  wf := dot_S16384x5x512_S16384x5x512_S16384x5x5_2_2_1_1_0_0_wf
def dot_S16384x5x5_S16384x5x512_S16384x5x512_2_1_1_2_0_0 : DotDims S16384x5x5 S16384x5x512 S16384x5x512 where
  lhsContracting := [2]
  rhsContracting := [1]
  lhsNonContracting := [1]
  rhsNonContracting := [2]
  lhsBatch := [0]
  rhsBatch := [0]
  wf := dot_S16384x5x5_S16384x5x512_S16384x5x512_2_1_1_2_0_0_wf

class Facts : Prop extends Facts₀ where

variable [Facts]
-- ==== Proof.Spec.lean ====
/-
  What both programs compute, written once over abstract arrays.

  Five models each give a batch row a query and a value vector, affine in the row's features:
  `q m = Wq · x m + bq`, `v m = Wv · x m + bv` (the keys are the queries).  Model `i` scores model `j` by
  `s i j = ⟨q i, q j⟩ − ½ (pv i + pv j)`, a softmax over `j` weighs the five value vectors, and the five
  weighted vectors are laid side by side: column `512 · i + c` of the result holds coordinate `c` of model `i`.

  The two programs arrange the softmax differently.  One divides each exponential by the row's
  total and then forms the weighted sum (`outR`); the other forms the weighted sum of the exponentials and
  divides once (`outK`), and reads the symmetric score matrix through its upper triangle (`scoreK`).
-/
import Idealize.ShloMosaic.PureOps.Ideal
import Idealize.ShloMosaic.Lib.ValueIdx

noncomputable section

namespace Cert.Attn

open Idealize.ShloMosaic Idealize.ShloMosaic.ValueIdx

/-- The shapes of the arguments and of the result. -/
abbrev TFeat : Shape := ⟨3, ![5, 16384, 1024]⟩
abbrev TPv : Shape := ⟨2, ![5, 16384]⟩
abbrev TW : Shape := ⟨2, ![512, 1024]⟩
abbrev TB : Shape := ⟨1, ![512]⟩
abbrev TOut : Shape := ⟨2, ![16384, 2560]⟩

/-- The weight of the variance penalty: the float word for one half, the same word in both programs. -/
def half : EReal := Ideal.ofBits .f32 0x3F000000#32

/-- An affine projection of batch row `b` of model `m`, coordinate `c`: `∑ d, W c d · x m b d + bias c`. -/
def proj (W : TW.Idx → EReal) (bias : TB.Idx → EReal) (X : TFeat.Idx → EReal)
    (b : Fin 16384) (m : Fin 5) (c : Fin 512) : EReal :=
  (∑ d : Fin 1024, W (ix2 c d) * X (ix3 m b d)) + bias (ix1 c)

/-- The score of model `i` against model `j`: the inner product of their queries less half the sum of
    their predicted variances. -/
def score (q : Fin 5 → Fin 512 → EReal) (pv : Fin 5 → EReal) (i j : Fin 5) : EReal :=
  (∑ c : Fin 512, q i c * q j c) - half * (pv i + pv j)

/-- The same score read through the upper triangle of the (symmetric) score matrix. -/
def scoreK (q : Fin 5 → Fin 512 → EReal) (pv : Fin 5 → EReal) (i j : Fin 5) : EReal :=
  if i ≤ j then score q pv i j else score q pv j i

/-- The largest of five scores, taken left to right. -/
def max5 (s : Fin 5 → EReal) : EReal := max (max (max (max (s 0) (s 1)) (s 2)) (s 3)) (s 4)

/-- The exponential of a score less the row's largest. -/
def ex (s : Fin 5 → EReal) (j : Fin 5) : EReal := Ideal.exp (s j - max5 s)

/-- The row's total of exponentials, added left to right. -/
def den (s : Fin 5 → EReal) : EReal := ex s 0 + ex s 1 + ex s 2 + ex s 3 + ex s 4

/-- The weighted sum of the exponentials, divided once by their total. -/
def outK (s v : Fin 5 → EReal) : EReal :=
  Ideal.div (ex s 0 * v 0 + ex s 1 * v 1 + ex s 2 * v 2 + ex s 3 * v 3 + ex s 4 * v 4) (den s)

/-- Each exponential divided by the total, then the weighted sum. -/
def outR (s v : Fin 5 → EReal) : EReal :=
  ∑ k : Fin 5, Ideal.div (ex s k) (∑ j : Fin 5, ex s j) * v k

/-- The model a result column belongs to, and the coordinate inside that model's vector. -/
def colM (n : Fin 2560) : Fin 5 := ⟨n.val / 512, by have := n.isLt; omega⟩
def colC (n : Fin 2560) : Fin 512 := ⟨n.val % 512, Nat.mod_lt _ (by decide)⟩

/-- Batch row `b`'s five query vectors, five value vectors and five predicted variances. -/
def qRow (a0 : TFeat.Idx → EReal) (a2 : TW.Idx → EReal) (a3 : TB.Idx → EReal) (b : Fin 16384) :
    Fin 5 → Fin 512 → EReal := fun m c => proj a2 a3 a0 b m c
def vRow (a0 : TFeat.Idx → EReal) (a6 : TW.Idx → EReal) (a7 : TB.Idx → EReal) (b : Fin 16384) :
    Fin 5 → Fin 512 → EReal := fun m c => proj a6 a7 a0 b m c
def pvRow (a1 : TPv.Idx → EReal) (b : Fin 16384) : Fin 5 → EReal := fun m => a1 (ix2 m b)

/-- The result with every exponential normalised before the weighted sum. -/
def refOut (a0 : TFeat.Idx → EReal) (a1 : TPv.Idx → EReal) (a2 : TW.Idx → EReal) (a3 : TB.Idx → EReal)
    (a6 : TW.Idx → EReal) (a7 : TB.Idx → EReal) (i : TOut.Idx) : EReal :=
  outR (fun j => score (qRow a0 a2 a3 (i 0)) (pvRow a1 (i 0)) (colM (i 1)) j)
    (fun k => vRow a0 a6 a7 (i 0) k (colC (i 1)))

/-- The result with one division per entry and the scores read through the upper triangle. -/
def kerOut (a0 : TFeat.Idx → EReal) (a1 : TPv.Idx → EReal) (a2 : TW.Idx → EReal) (a3 : TB.Idx → EReal)
    (a6 : TW.Idx → EReal) (a7 : TB.Idx → EReal) (i : TOut.Idx) : EReal :=
  outK (fun j => scoreK (qRow a0 a2 a3 (i 0)) (pvRow a1 (i 0)) (colM (i 1)) j)
    (fun k => vRow a0 a6 a7 (i 0) k (colC (i 1)))

end Cert.Attn

end
-- ==== Proof.Law.lean ====
/-
  The law joining the two arrangements of the softmax-weighted sum.

  Over the extended reals, with every input a real number:
    * each projected coordinate, each score, and the row maximum are real;
    * each exponential `exp (s j − max s)` is a positive real, so the row total `d` is a positive real;
    * division by a nonzero real is multiplication by its reciprocal, hence
        (e₀ v₀ + e₁ v₁ + e₂ v₂ + e₃ v₃ + e₄ v₄) / d = ∑ k, (e_k / d) · v_k ;
    * the score is symmetric in its two indices, so reading it through the upper triangle changes nothing.
-/
import proofs.«106329_j27530740367910_2_alg».proof.Proof.Spec

noncomputable section

namespace Cert.Attn

open Idealize.ShloMosaic Idealize.ShloMosaic.ValueIdx

namespace Law

/-- An extended real that is (the image of) a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem IsReal.max {x y : EReal} (hx : IsReal x) (hy : IsReal y) : IsReal (max x y) := by
  rcases max_choice x y with h | h <;> rw [h] <;> assumption

theorem IsReal.sum {ι : Type} (t : Finset ι) (f : ι → EReal) (hf : ∀ i, IsReal (f i)) :
    IsReal (∑ i ∈ t, f i) := by
  classical
  induction t using Finset.induction_on with
  | empty => exact ⟨0, by simp⟩
  | insert a s ha ih => rw [Finset.sum_insert ha]; exact (hf a).add ih

/-- The float word for one half denotes the real number one half. -/
theorem half_eq : half = ((1 / 2 : ℝ) : EReal) := by
  simp [half, Ideal.ofBits, Ideal.ieee, -EReal.coe_mul]; norm_num

theorem isReal_half : IsReal half := ⟨1 / 2, half_eq⟩

end Law

open Law

/-- The score is symmetric, so the upper-triangle reading is the score itself — for all extended reals. -/
theorem score_symm (q : Fin 5 → Fin 512 → EReal) (pv : Fin 5 → EReal) (i j : Fin 5) :
    score q pv i j = score q pv j i := by
  unfold score
  rw [add_comm (pv i) (pv j)]
  congr 1
  exact Finset.sum_congr rfl (fun c _ => mul_comm _ _)

theorem scoreK_eq_score (q : Fin 5 → Fin 512 → EReal) (pv : Fin 5 → EReal) (i j : Fin 5) :
    scoreK q pv i j = score q pv i j := by
  unfold scoreK
  split
  · rfl
  · exact score_symm q pv j i

/-- The row maximum of five reals is real. -/
theorem isReal_max5 (s : Fin 5 → EReal) (hs : ∀ j, IsReal (s j)) : IsReal (max5 s) := by
  unfold max5
  exact ((((hs 0).max (hs 1)).max (hs 2)).max (hs 3)).max (hs 4)

/-- Each exponential of a real score less the real row maximum is a positive real. -/
theorem ex_pos_real (s : Fin 5 → EReal) (hs : ∀ j, IsReal (s j)) (j : Fin 5) :
    ∃ e : ℝ, 0 < e ∧ ex s j = (e : EReal) := by
  obtain ⟨r, hr⟩ := (hs j).sub (isReal_max5 s hs)
  refine ⟨Real.exp r, Real.exp_pos r, ?_⟩
  unfold ex
  rw [hr, Ideal.exp_coe]

/-- The total of the exponentials, added left to right, is their sum. -/
theorem den_eq_sum (s : Fin 5 → EReal) : den s = ∑ j : Fin 5, ex s j := by
  unfold den
  rw [Fin.sum_univ_five]

/-- Row level: normalising each exponential and then summing equals summing and dividing once. -/
theorem outR_eq_outK (s v : Fin 5 → EReal) (hs : ∀ j, ∃ r : ℝ, s j = r) (hv : ∀ k, ∃ r : ℝ, v k = r) :
    outR s v = outK s v := by
  obtain ⟨e0, p0, h0⟩ := ex_pos_real s hs 0
  obtain ⟨e1, p1, h1⟩ := ex_pos_real s hs 1
  obtain ⟨e2, p2, h2⟩ := ex_pos_real s hs 2
  obtain ⟨e3, p3, h3⟩ := ex_pos_real s hs 3
  obtain ⟨e4, p4, h4⟩ := ex_pos_real s hs 4
  obtain ⟨v0, g0⟩ := hv 0
  obtain ⟨v1, g1⟩ := hv 1
  obtain ⟨v2, g2⟩ := hv 2
  obtain ⟨v3, g3⟩ := hv 3
  obtain ⟨v4, g4⟩ := hv 4
  have hd : (e0 + e1 + e2 + e3 + e4 : ℝ) ≠ 0 := by positivity
  have hden : den s = ((e0 + e1 + e2 + e3 + e4 : ℝ) : EReal) := by
    unfold den; rw [h0, h1, h2, h3, h4]; simp only [EReal.coe_add]
  unfold outR outK
  rw [← den_eq_sum, Fin.sum_univ_five, hden, h0, h1, h2, h3, h4, g0, g1, g2, g3, g4]
  simp only [Ideal.div_coe hd, ← EReal.coe_mul, ← EReal.coe_add]
  congr 1
  field_simp

/-- With real arrays, every projected coordinate is real. -/
theorem isReal_proj (W : TW.Idx → EReal) (bias : TB.Idx → EReal) (X : TFeat.Idx → EReal)
    (hW : ∀ i, IsReal (W i)) (hb : ∀ i, IsReal (bias i)) (hX : ∀ i, IsReal (X i))
    (b : Fin 16384) (m : Fin 5) (c : Fin 512) : IsReal (proj W bias X b m c) := by
  unfold proj
  exact (IsReal.sum _ _ (fun d => (hW _).mul (hX _))).add (hb _)

/-- With real queries and real variances, every score is real. -/
theorem isReal_score (q : Fin 5 → Fin 512 → EReal) (pv : Fin 5 → EReal)
    (hq : ∀ m c, IsReal (q m c)) (hpv : ∀ m, IsReal (pv m)) (i j : Fin 5) : IsReal (score q pv i j) := by
  unfold score
  exact (IsReal.sum _ _ (fun c => (hq _ _).mul (hq _ _))).sub (isReal_half.mul ((hpv _).add (hpv _)))

/-- The two arrangements give the same result on real inputs. -/
theorem refOut_eq_kerOut (a0 : TFeat.Idx → EReal) (a1 : TPv.Idx → EReal) (a2 : TW.Idx → EReal)
    (a3 : TB.Idx → EReal) (a6 : TW.Idx → EReal) (a7 : TB.Idx → EReal)
    (h0 : ∀ i, ∃ r : ℝ, a0 i = (r : EReal)) (h1 : ∀ i, ∃ r : ℝ, a1 i = (r : EReal))
    (h2 : ∀ i, ∃ r : ℝ, a2 i = (r : EReal)) (h3 : ∀ i, ∃ r : ℝ, a3 i = (r : EReal))
    (h6 : ∀ i, ∃ r : ℝ, a6 i = (r : EReal)) (h7 : ∀ i, ∃ r : ℝ, a7 i = (r : EReal)) :
    refOut a0 a1 a2 a3 a6 a7 = kerOut a0 a1 a2 a3 a6 a7 := by
  funext i
  unfold refOut kerOut
  have hK : (fun j => scoreK (qRow a0 a2 a3 (i 0)) (pvRow a1 (i 0)) (colM (i 1)) j)
      = (fun j => score (qRow a0 a2 a3 (i 0)) (pvRow a1 (i 0)) (colM (i 1)) j) :=
    funext (fun j => scoreK_eq_score _ _ _ _)
  rw [hK]
  apply outR_eq_outK
  · intro j
    exact isReal_score _ _ (fun m c => isReal_proj a2 a3 a0 h2 h3 h0 (i 0) m c)
      (fun m => h1 _) _ _
  · intro k
    exact isReal_proj a6 a7 a0 h6 h7 h0 (i 0) k (colC (i 1))

end Cert.Attn

end
-- ==== Proof.Finite.lean ====
/-
  Finiteness of the argument arrays, read back from the precondition.

  The precondition computes, for each of the eight argument arrays `x`, the bit "every entry of
  `|x|` is strictly below `+∞`" (an and-reduction over all axes of the elementwise comparison
  `|x| < +∞`), and the conjunction of those eight bits. On the extended reals `|x|` is
  `max x (-x)`, and `max x (-x) < ⊤` excludes both `x = ⊤` and `x = ⊥`; what is left is a real
  number. So from "the conjunction is one" every entry of every argument array is a real number.
-/
import proofs.«106329_j27530740367910_2_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Attn.Fin

open Idealize.ShloMosaic Cert.Pre_finite_inputs

/-- The scalar shape has exactly one index. -/
instance subsingleton_scalar_idx : Subsingleton S_.Idx := ⟨fun a b => funext fun d => d.elim0⟩

/-- The pattern `0x7F800000` of the 32-bit format denotes `+∞`. -/
theorem ofBits_inf : Ideal.ofBits .f32 0x7F800000#32 = (⊤ : EReal) := by
  simp [Ideal.ofBits, Ideal.ieee]

/-- An extended real whose absolute value `max x (-x)` lies strictly below `⊤` is a real number:
    `x = ⊤` gives `max ⊤ ⊥ = ⊤`, and `x = ⊥` gives `max ⊥ ⊤ = ⊤`. -/
theorem real_of_abs_lt_top (x : EReal) (h : max x (-x) < ⊤) : ∃ r : ℝ, x = (r : EReal) := by
  induction x using EReal.rec with
  | bot => simp at h
  | coe r => exact ⟨r, rfl⟩
  | top => simp at h

/-- The elementwise test: if the comparison `|x| < +∞` comes out one, `x` is a real number. -/
theorem real_of_cmp_one (x : Ideal .f32)
    (h : FloatOps.cmpf .olt (FloatOps.hostAbsf x) (FloatOps.ofBits (F := Ideal) .f32 0x7F800000#32) = 1#1) :
    ∃ r : ℝ, x = (r : EReal) := by
  apply real_of_abs_lt_top
  rw [Ideal.hostAbsf_def, Ideal.absf_def, Ideal.ofBits_def, ofBits_inf, Ideal.cmpf_def] at h
  by_contra hn
  simp [Ideal.cmp, hn] at h

/-- The all-finite bit of one array: if the and-reduction over all axes of `|a| < +∞` is one, every
    entry of `a` is a real number. Generic in the array's shape and in the reduced axes. -/
theorem real_of_all_one {s : Shape} {axes : List (Fin s.rank)}
    (hb : S_.BroadcastsInDim s (![] : Fin 0 → Fin s.rank)) (hr : s.ReducesTo axes S_) (hu : 0 < S_.numel)
    (a : FVec Ideal s .f32)
    (h : Host.reduce IntOp.andi
          (cmpf .olt (Host.absf a) (broadcastInDim s ![] hb (constant (F := Ideal) S_ .f32 0x7F800000#32)))
          (constantI S_ 1 1#1) hr hu ValueIdx.ix0 = 1#1) :
    ∀ i, ∃ r : ℝ, a i = (r : EReal) := by
  intro i
  have e := Host.reduce_andi_all _ _ hr hu ValueIdx.ix0 h i
  exact real_of_cmp_one (a i) e

/-- From the precondition — the conjunction of the eight all-finite bits is one — every entry of every
    argument array is a real number. The conjunction splits into its eight bits, and each bit is the
    all-finite bit of one array. -/
theorem real_of_pre_all [Cert.Pre_finite_inputs.Facts]
    (a0 : FVec Ideal S5x16384x1024 .f32) (a1 : FVec Ideal S5x16384 .f32)
    (a2 : FVec Ideal S512x1024 .f32) (a3 : FVec Ideal S512 .f32)
    (a4 : FVec Ideal S512x1024 .f32) (a5 : FVec Ideal S512 .f32)
    (a6 : FVec Ideal S512x1024 .f32) (a7 : FVec Ideal S512 .f32)
    (h : Cert.Pre_finite_inputs.fn (F := Ideal) a0 a1 a2 a3 a4 a5 a6 a7 = fun _ => 1#1) :
    (∀ i, ∃ r : ℝ, a0 i = (r : EReal)) ∧ (∀ i, ∃ r : ℝ, a1 i = (r : EReal)) ∧
    (∀ i, ∃ r : ℝ, a2 i = (r : EReal)) ∧ (∀ i, ∃ r : ℝ, a3 i = (r : EReal)) ∧
    (∀ i, ∃ r : ℝ, a4 i = (r : EReal)) ∧ (∀ i, ∃ r : ℝ, a5 i = (r : EReal)) ∧
    (∀ i, ∃ r : ℝ, a6 i = (r : EReal)) ∧ (∀ i, ∃ r : ℝ, a7 i = (r : EReal)) := by
  have h0 := congrFun h ValueIdx.ix0
  dsimp only [Cert.Pre_finite_inputs.fn, Cert.Pre_finite_inputs.fn_part1, Cert.Pre_finite_inputs.fn_part2] at h0
  simp only [andi, IntOp.andi_eq_one] at h0
  obtain ⟨⟨⟨⟨⟨⟨⟨b0, b1⟩, b2⟩, b3⟩, b4⟩, b5⟩, b6⟩, b7⟩ := h0
  exact ⟨real_of_all_one _ _ _ a0 b0, real_of_all_one _ _ _ a1 b1, real_of_all_one _ _ _ a2 b2,
    real_of_all_one _ _ _ a3 b3, real_of_all_one _ _ _ a4 b4, real_of_all_one _ _ _ a5 b5,
    real_of_all_one _ _ _ a6 b6, real_of_all_one _ _ _ a7 b7⟩

/-- The same statement for the six arrays that enter the computation (the fifth and
    sixth arrays left out). -/
theorem real_of_pre [Cert.Pre_finite_inputs.Facts]
    (a0 : FVec Ideal S5x16384x1024 .f32) (a1 : FVec Ideal S5x16384 .f32)
    (a2 : FVec Ideal S512x1024 .f32) (a3 : FVec Ideal S512 .f32)
    (a4 : FVec Ideal S512x1024 .f32) (a5 : FVec Ideal S512 .f32)
    (a6 : FVec Ideal S512x1024 .f32) (a7 : FVec Ideal S512 .f32)
    (h : Cert.Pre_finite_inputs.fn (F := Ideal) a0 a1 a2 a3 a4 a5 a6 a7 = fun _ => 1#1) :
    (∀ i, ∃ r : ℝ, a0 i = (r : EReal)) ∧ (∀ i, ∃ r : ℝ, a1 i = (r : EReal)) ∧
    (∀ i, ∃ r : ℝ, a2 i = (r : EReal)) ∧ (∀ i, ∃ r : ℝ, a3 i = (r : EReal)) ∧
    (∀ i, ∃ r : ℝ, a6 i = (r : EReal)) ∧ (∀ i, ∃ r : ℝ, a7 i = (r : EReal)) := by
  obtain ⟨r0, r1, r2, r3, _, _, r6, r7⟩ := real_of_pre_all a0 a1 a2 a3 a4 a5 a6 a7 h
  exact ⟨r0, r1, r2, r3, r6, r7⟩

end Cert.Attn.Fin

end
-- ==== Proof.RefSpec.lean ====
/-
  The reference program computes the specification's normalise-then-weigh form.

  The program is a straight line of array operations; each is read at one index.  Two matrix products with
  the features, transposed and shifted by a bias, are the queries and the values of the specification
  (`proj`).  The batched product of the queries with themselves, less one half of the broadcast sum of the
  predicted variances, is the score matrix (`score`).  The row maximum is a fold of `max` from minus infinity
  over the five columns, which is the left-to-right maximum `max5`; the later maximum with minus infinity
  changes nothing.  The exponentials of the scores less the row maximum are `ex`, their sum from zero is the
  row total, each exponential is divided by the total, and the batched product with the values is the
  weighted sum `outR`.  The last operation lays the five weighted vectors side by side: entry `(b, n)` of
  the result is entry `(b, n / 512, n mod 512)` of the product.
-/
import proofs.«106329_j27530740367910_2_alg».proof.Proof.Spec
import proofs.«106329_j27530740367910_2_alg».proof.Proof.Gen.ReferenceIdeal.Read

noncomputable section

namespace Cert.Attn.Ref

open Cert.ReferenceIdeal Cert.ReferenceIdeal.Gen Cert.ReferenceIdeal.Read
open Idealize.ShloMosaic Idealize.ShloMosaic.ValueIdx

/-- The queries: the affine projection of the features by the query weights. -/
theorem v4_at (x0 : TFeat.Idx → EReal) (x2 : TW.Idx → EReal) (x3 : TB.Idx → EReal) (b : Fin 16384) (m : Fin 5) (c : Fin 512) :
    val_main_v4 (F := Ideal) x0 x2 x3 (ix3 b m c) = proj x2 x3 x0 b m c := by
  rw [val_main_v4_apply, val_main_v1_apply, val_main_v0_apply, val_main_v3_apply, val_main_v2_apply]
  simp only [Ideal.addf_def]
  unfold proj
  have e3 : idx_main_v2 (idx_main_v3 (ix3 b m c)) = ix1 c :=
    funext fun a => Fin.ext (by match a with | ⟨0, _⟩ => rfl)
  rw [e3]
  refine congrArg (· + x3 (ix1 c)) (Finset.sum_congr rfl fun d _ => ?_)
  have el : lidx_main_v0 (idx_main_v1 (ix3 b m c)) d = ix2 c d :=
    funext fun a => Fin.ext (by match a with | ⟨0, _⟩ => rfl | ⟨1, _⟩ => rfl)
  have er : ridx_main_v0 (idx_main_v1 (ix3 b m c)) d = ix3 m b d :=
    funext fun a => Fin.ext (by match a with | ⟨0, _⟩ => rfl | ⟨1, _⟩ => rfl | ⟨2, _⟩ => rfl)
  rw [el, er]

/-- The values: the affine projection of the features by the value weights. -/
theorem v9_at (x0 : TFeat.Idx → EReal) (x6 : TW.Idx → EReal) (x7 : TB.Idx → EReal) (b : Fin 16384) (m : Fin 5) (c : Fin 512) :
    val_main_v9 (F := Ideal) x0 x6 x7 (ix3 b m c) = proj x6 x7 x0 b m c := by
  rw [val_main_v9_apply, val_main_v6_apply, val_main_v5_apply, val_main_v8_apply, val_main_v7_apply]
  simp only [Ideal.addf_def]
  unfold proj
  have e3 : idx_main_v7 (idx_main_v8 (ix3 b m c)) = ix1 c :=
    funext fun a => Fin.ext (by match a with | ⟨0, _⟩ => rfl)
  rw [e3]
  refine congrArg (· + x7 (ix1 c)) (Finset.sum_congr rfl fun d _ => ?_)
  have el : lidx_main_v5 (idx_main_v6 (ix3 b m c)) d = ix2 c d :=
    funext fun a => Fin.ext (by match a with | ⟨0, _⟩ => rfl | ⟨1, _⟩ => rfl)
  have er : ridx_main_v5 (idx_main_v6 (ix3 b m c)) d = ix3 m b d :=
    funext fun a => Fin.ext (by match a with | ⟨0, _⟩ => rfl | ⟨1, _⟩ => rfl | ⟨2, _⟩ => rfl)
  rw [el, er]

/-- The scores: the queries' inner products less half the sum of the two predicted variances. -/
theorem v19_at (x0 : TFeat.Idx → EReal) (x1 : TPv.Idx → EReal) (x2 : TW.Idx → EReal) (x3 : TB.Idx → EReal) (b : Fin 16384) (i j : Fin 5) :
    val_main_v19 (F := Ideal) x0 x1 x2 x3 (ix3 b i j) = score (qRow x0 x2 x3 b) (pvRow x1 b) i j := by
  rw [val_main_v19_apply, val_main_v11_apply, val_main_v18_apply, val_main_v17_apply, val_main_cst_apply,
    val_main_v16_apply, val_main_v14_apply, val_main_v12_apply, val_main_v10_apply, val_main_v15_apply,
    val_main_v13_apply, val_main_v10_apply]
  simp only [Ideal.addf_def, Ideal.subf_def, Ideal.mulf_def, Ideal.ofBits_def]
  unfold score half pvRow qRow
  have ei : idx_main_v10 (idx_main_v12 (idx_main_v14 (ix3 b i j))) = ix2 i b :=
    funext fun a => Fin.ext (by match a with | ⟨0, _⟩ => rfl | ⟨1, _⟩ => rfl)
  have ej : idx_main_v10 (idx_main_v13 (idx_main_v15 (ix3 b i j))) = ix2 j b :=
    funext fun a => Fin.ext (by match a with | ⟨0, _⟩ => rfl | ⟨1, _⟩ => rfl)
  rw [ei, ej]
  refine congrArg (· - Ideal.ofBits FTy.f32 0x3F000000#32 * (x1 (ix2 i b) + x1 (ix2 j b))) (Finset.sum_congr rfl fun c _ => ?_)
  have el : lidx_main_v11 (ix3 b i j) c = ix3 b i c :=
    funext fun a => Fin.ext (by match a with | ⟨0, _⟩ => rfl | ⟨1, _⟩ => rfl | ⟨2, _⟩ => rfl)
  have er : ridx_main_v11 (ix3 b i j) c = ix3 b j c :=
    funext fun a => Fin.ext (by match a with | ⟨0, _⟩ => rfl | ⟨1, _⟩ => rfl | ⟨2, _⟩ => rfl)
  rw [el, er, v4_at, v4_at]

/-- The float word of the maximum's initial value denotes minus infinity. -/
theorem ninf : Ideal.ofBits .f32 0xFF800000#32 = (⊥ : EReal) := by simp [Ideal.ofBits, Ideal.ieee]

/-- The maximum of five extended reals, folded from minus infinity, is their maximum taken left to right. -/
theorem fold_max5 (f : Fin 5 → EReal) : (Finset.univ : Finset (Fin 5)).fold max (⊥ : EReal) f = max5 f := by
  apply le_antisymm
  · rw [Finset.fold_max_le]
    refine ⟨bot_le, fun x _ => ?_⟩
    unfold max5
    match x with
    | ⟨0, _⟩ => exact le_max_of_le_left (le_max_of_le_left (le_max_of_le_left (le_max_left _ _)))
    | ⟨1, _⟩ => exact le_max_of_le_left (le_max_of_le_left (le_max_of_le_left (le_max_right _ _)))
    | ⟨2, _⟩ => exact le_max_of_le_left (le_max_of_le_left (le_max_right _ _))
    | ⟨3, _⟩ => exact le_max_of_le_left (le_max_right _ _)
    | ⟨4, _⟩ => exact le_max_right _ _
  · unfold max5
    simp only [max_le_iff]
    refine ⟨⟨⟨⟨?_, ?_⟩, ?_⟩, ?_⟩, ?_⟩ <;>
      exact (Finset.le_fold_max _).2 (Or.inr ⟨_, Finset.mem_univ _, le_rfl⟩)

/-- The row maximum of the scores, as the reduction computes it from minus infinity. -/
theorem v20_at (x0 : TFeat.Idx → EReal) (x1 : TPv.Idx → EReal) (x2 : TW.Idx → EReal) (x3 : TB.Idx → EReal) (b : Fin 16384) (i : Fin 5) :
    val_main_v20 (F := Ideal) x0 x1 x2 x3 (ix2 b i) = max5 (fun j => score (qRow x0 x2 x3 b) (pvRow x1 b) i j) := by
  have h : S16384x5x5.Reduces [2] S16384x5 := by decide
  unfold val_main_v20
  rw [Host.reduce_eq_fold_single FloatOps.maximumf _ _ reducesTo_S16384x5x5_S16384x5_d2 h h_S_]
  have hf : (val_main_v19 (F := Ideal) x0 x1 x2 x3 ∘ h.lift (ix2 b i))
      = fun j : Fin 5 => score (qRow x0 x2 x3 b) (pvRow x1 b) i j := funext fun k => by
    show val_main_v19 (F := Ideal) x0 x1 x2 x3 (h.lift (ix2 b i) k) = _
    rw [show h.lift (ix2 b i) k = ix3 b i k from
      funext fun a => Fin.ext (by match a with | ⟨0, _⟩ => rfl | ⟨1, _⟩ => rfl | ⟨2, _⟩ => rfl)]
    exact v19_at x0 x1 x2 x3 b i k
  refine Eq.trans (congrArg (fun f => Finset.fold FloatOps.maximumf _ f (Finset.univ : Finset (Fin 5))) hf) ?_
  show Finset.fold max (Ideal.ofBits .f32 0xFF800000#32) _ _ = _
  rw [ninf]
  exact fold_max5 _

/-- The row maximum after the (idle) maximum with minus infinity. -/
theorem v22_at (x0 : TFeat.Idx → EReal) (x1 : TPv.Idx → EReal) (x2 : TW.Idx → EReal) (x3 : TB.Idx → EReal) (b : Fin 16384) (i : Fin 5) :
    val_main_v22 (F := Ideal) x0 x1 x2 x3 (ix2 b i) = max5 (fun j => score (qRow x0 x2 x3 b) (pvRow x1 b) i j) := by
  rw [val_main_v22_apply, val_main_v21_apply, val_main_cst_1_apply, v20_at]
  simp only [Ideal.maximumf_def, Ideal.ofBits_def, ninf, bot_le, max_eq_right]

/-- The exponential of a score less its row's maximum. -/
theorem v26_at (x0 : TFeat.Idx → EReal) (x1 : TPv.Idx → EReal) (x2 : TW.Idx → EReal) (x3 : TB.Idx → EReal) (b : Fin 16384) (i j : Fin 5) :
    val_main_v26 (F := Ideal) x0 x1 x2 x3 (ix3 b i j) = ex (fun j => score (qRow x0 x2 x3 b) (pvRow x1 b) i j) j := by
  rw [val_main_v26_apply, val_main_v25_apply, val_main_v24_apply, val_main_v23_apply, v19_at]
  rw [show idx_main_v23 (idx_main_v24 (ix3 b i j)) = ix2 b i from
      funext fun a => Fin.ext (by match a with | ⟨0, _⟩ => rfl | ⟨1, _⟩ => rfl), v22_at]
  simp only [Ideal.hostUnary_exp_def, Ideal.subf_def]
  rfl

/-- The row's total of exponentials, added from zero. -/
theorem v27_at (x0 : TFeat.Idx → EReal) (x1 : TPv.Idx → EReal) (x2 : TW.Idx → EReal) (x3 : TB.Idx → EReal) (b : Fin 16384) (i : Fin 5) :
    val_main_v27 (F := Ideal) x0 x1 x2 x3 (ix2 b i)
      = ∑ j : Fin 5, ex (fun j => score (qRow x0 x2 x3 b) (pvRow x1 b) i j) j := by
  rw [val_main_v27_apply, val_main_cst_2_apply]
  simp only [Ideal.ofBits_def, Ideal.ofBits_zero_f32, zero_add]
  refine Finset.sum_congr rfl fun k _ => ?_
  rw [show idx_main_v27 (ix2 b i) k = ix3 b i k from
      funext fun a => Fin.ext (by match a with | ⟨0, _⟩ => rfl | ⟨1, _⟩ => rfl | ⟨2, _⟩ => rfl), v26_at]

/-- Each exponential divided by its row's total. -/
theorem v30_at (x0 : TFeat.Idx → EReal) (x1 : TPv.Idx → EReal) (x2 : TW.Idx → EReal) (x3 : TB.Idx → EReal) (b : Fin 16384) (i j : Fin 5) :
    val_main_v30 (F := Ideal) x0 x1 x2 x3 (ix3 b i j)
      = Ideal.div (ex (fun j => score (qRow x0 x2 x3 b) (pvRow x1 b) i j) j)
          (∑ k : Fin 5, ex (fun j => score (qRow x0 x2 x3 b) (pvRow x1 b) i j) k) := by
  rw [val_main_v30_apply, val_main_v29_apply, val_main_v28_apply, v26_at]
  rw [show idx_main_v28 (idx_main_v29 (ix3 b i j)) = ix2 b i from
      funext fun a => Fin.ext (by match a with | ⟨0, _⟩ => rfl | ⟨1, _⟩ => rfl), v27_at]
  simp only [Ideal.hostDivf_def]

/-- The weighted sum of the five value vectors. -/
theorem v31_at (x0 : TFeat.Idx → EReal) (x1 : TPv.Idx → EReal) (x2 : TW.Idx → EReal) (x3 : TB.Idx → EReal)
    (x6 : TW.Idx → EReal) (x7 : TB.Idx → EReal) (b : Fin 16384) (i : Fin 5) (c : Fin 512) :
    val_main_v31 (F := Ideal) x0 x1 x2 x3 x6 x7 (ix3 b i c)
      = outR (fun j => score (qRow x0 x2 x3 b) (pvRow x1 b) i j) (fun k => vRow x0 x6 x7 b k c) := by
  rw [val_main_v31_apply]
  unfold outR vRow
  refine Finset.sum_congr rfl fun k _ => ?_
  rw [show lidx_main_v31 (ix3 b i c) k = ix3 b i k from
      funext fun a => Fin.ext (by match a with | ⟨0, _⟩ => rfl | ⟨1, _⟩ => rfl | ⟨2, _⟩ => rfl),
    show ridx_main_v31 (ix3 b i c) k = ix3 b k c from
      funext fun a => Fin.ext (by match a with | ⟨0, _⟩ => rfl | ⟨1, _⟩ => rfl | ⟨2, _⟩ => rfl),
    v30_at, v9_at]

/-- The reference program's result is the specification's normalise-then-weigh form: result column `n` of
    batch row `b` is coordinate `n mod 512` of model `n / 512`'s weighted vector. -/
theorem ref_eq (x0 : Cert.Attn.TFeat.Idx → EReal) (x1 : Cert.Attn.TPv.Idx → EReal) (x2 : Cert.Attn.TW.Idx → EReal) (x3 : Cert.Attn.TB.Idx → EReal) (x6 : Cert.Attn.TW.Idx → EReal) (x7 : Cert.Attn.TB.Idx → EReal) :
      Cert.ReferenceIdeal.Read.val_main_v32 (F := Ideal) x0 x1 x2 x3 x6 x7 = Cert.Attn.refOut x0 x1 x2 x3 x6 x7 := by
  funext i
  have h0 : (i 0).val < 16384 := (i 0).isLt
  have h1 : (i 1).val < 2560 := (i 1).isLt
  have e : idx_main_v32 i = ix3 (n0 := 16384) (i 0) (colM (i 1)) (colC (i 1)) :=
    funext fun a => Fin.ext (by
      match a with
      | ⟨0, _⟩ => show ((i 0).val * 2560 + (i 1).val) / 2560 = (i 0).val; omega
      | ⟨1, _⟩ => show ((i 0).val * 2560 + (i 1).val) / 512 % 5 = (i 1).val / 512; omega
      | ⟨2, _⟩ => show ((i 0).val * 2560 + (i 1).val) % 512 = (i 1).val % 512; omega)
  rw [val_main_v32_apply, e]
  exact v31_at x0 x1 x2 x3 x6 x7 (i 0) (colM (i 1)) (colC (i 1))

end Cert.Attn.Ref

end
-- ==== Proof.KLayout.lean ====
/-
  Re-laid arrays read at an index, for the shapes a row-wise kernel meets: a column kept after a sum over
  the lanes (`[a] → [a, 1]`), that column repeated along the lanes (`[a, 1] → [a, b]`), a rank-3 array cut on its
  first and last axes at once, and a sum over the lanes as a sum over the lane coordinate.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Attn.Lay

open Idealize.ShloMosaic Idealize.ShloMosaic.ValueIdx

variable {α : Type}

/-- An `[a]` vector viewed as an `[a, 1]` column reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along the lanes reads, at `(i, j)`, the column at `(i, 0)`. -/
theorem broadcastTo_a1_ab_apply {a b : ℕ} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) := by
  refine broadcastTo_apply x h (ix2 i j) (ix2 i (0 : Fin 1)) fun ax => ?_
  match ax with
  | ⟨0, _⟩ =>
    show i.val = if a = 1 then 0 else i.val
    split
    · have := i.isLt; omega
    · rfl
  | ⟨1, _⟩ => rfl

/-- A rank-3 array cut on its first axis from `o0` and on its last from `o2` reads, at `(i, j, k)`, the source at
    `(o0 + i, j, o2 + k)`. -/
theorem slice3_ends_apply {n0 n1 n2 m0 m2 : ℕ} (o0 o2 : ℕ) (X : (⟨3, ![n0, n1, n2]⟩ : Shape).Idx → α)
    (h : (⟨3, ![n0, n1, n2]⟩ : Shape).Slices ![o0, 0, o2] ⟨3, ![m0, n1, m2]⟩)
    (i : Fin m0) (j : Fin n1) (k : Fin m2) (i' : Fin n0) (k' : Fin n2)
    (hi : i'.val = o0 + i.val) (hk : k'.val = o2 + k.val) :
    extractStridedSlice ⟨3, ![m0, n1, m2]⟩ ![o0, 0, o2] X h (ix3 i j k) = X (ix3 i' j k') :=
  extractStridedSlice_apply _ _ _ _ _ (fun ax => by
    match ax with
    | ⟨0, _⟩ => exact hi
    | ⟨1, _⟩ => exact (Nat.zero_add _).symm
    | ⟨2, _⟩ => exact hk)

/-- A sum over the lanes of an `[a, b]` array reads, at row `i`, the sum of that row's `b` entries. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (i : Fin a) :
    multiReduction .add [1] ⟨1, ![a]⟩ v acc h hφ hacc (ix1 i) = ∑ c : Fin b, v (ix2 i c) := by
  refine (Ideal.multiReduction_add_single v acc h hφ hacc (ix1 i)).trans ?_
  refine Finset.sum_congr rfl fun c _ => congrArg v (funext fun ax => Fin.ext ?_)
  match ax with
  | ⟨0, _⟩ => rfl
  | ⟨1, _⟩ => rfl

end Cert.Attn.Lay

end
-- ==== Proof.KRow.lean ====
/-
  One batch row of the kernel's arithmetic, read at an index.

  A score column is the inner product, over the 512 lanes, of two query blocks, less one half of the sum of two
  variance columns.  A result block is the softmax of five score columns applied to five value blocks: the largest
  score, the exponentials of the differences, their total, the weighted sum of the value blocks, one division.
-/
import proofs.«106329_j27530740367910_2_alg».proof.Proof.Gen.KernelIdeal.Skeleton
import proofs.«106329_j27530740367910_2_alg».proof.Proof.Spec
import proofs.«106329_j27530740367910_2_alg».proof.Proof.KLayout

noncomputable section

namespace Cert.Attn.Ker

open Idealize.ShloMosaic Idealize.ShloMosaic.ValueIdx Cert.KernelIdeal Cert.KernelIdeal.Gen

/-- A score column at row `a`: `∑ c, Qi a c · Qj a c − ½ (Pi a + Pj a)`. -/
theorem scoreCol_apply (Qi Qj : FVec Ideal S256x512 .f32) (Pi Pj : FVec Ideal S256x1 .f32) (a : Fin 256) (u : Fin 1) :
    k0_pay22 (F := Ideal) Qi Qj Pi Pj (ix2 a u)
      = (∑ c : Fin 512, Qi (ix2 a c) * Qj (ix2 a c)) - Cert.Attn.half * (Pi (ix2 a u) + Pj (ix2 a u)) := by
  unfold k0_pay22
  rw [subf_apply, mulf_apply, addf_apply, broadcast_apply, Lay.shapeCast_a_a1_apply]
  exact congrArg₂ (· - ·) (Lay.laneSum_apply (mulf Qi Qj) _ _ _ _ a) rfl

/-- A result block at row `a`, lane `c`: the softmax of the five scores of row `a` applied to the five values at
    `(a, c)`, with one division. -/
theorem softmaxRow_apply (V0 V1 V2 V3 V4 : FVec Ideal S256x512 .f32) (s0 s1 s2 s3 s4 : FVec Ideal S256x1 .f32)
    (a : Fin 256) (c : Fin 512) :
    k0_pay39 (F := Ideal) V0 V1 V2 V3 V4 s0 s1 s2 s3 s4 (ix2 a c)
      = Cert.Attn.outK ![s0 (ix2 a 0), s1 (ix2 a 0), s2 (ix2 a 0), s3 (ix2 a 0), s4 (ix2 a 0)]
          ![V0 (ix2 a c), V1 (ix2 a c), V2 (ix2 a c), V3 (ix2 a c), V4 (ix2 a c)] := by
  unfold k0_pay39
  simp only [divf_apply, addf_apply, mulf_apply, Lay.broadcastTo_a1_ab_apply]
  rfl

end Cert.Attn.Ker

end
-- ==== Proof.LibReshape.lean ====
/-
  General lemmas about re-laid arrays read at an index, for any element type: a matrix with `a·b` rows viewed as an
  `[a, b, c]` array and back (row `i·b + j` is entry `(i, j)`), a matrix given a unit middle axis, and an array
  with a unit axis repeated along that axis.
-/
import Idealize.ShloMosaic.Lib.Pipeline.Value
import Idealize.ShloMosaic.Lib.ValueIdx

namespace Cert.LibReshape

open Idealize.ShloMosaic Idealize.ShloMosaic.ValueIdx

variable {α : Type}

/-- An `[M, c]` array viewed as `[a, b, c]` reads, at `(i, j, k)`, the operand's row `i·b + j` at column `k`. -/
theorem shapeCast_Mc_abc_apply {a b c M : ℕ} (x : (⟨2, ![M, c]⟩ : Shape).Idx → α)
    (h : (⟨2, ![M, c]⟩ : Shape).ShapeCasts ⟨3, ![a, b, c]⟩) (i : Fin a) (j : Fin b) (k : Fin c) (p : Fin M)
    (hp : p.val = i.val * b + j.val) :
    shapeCast ⟨3, ![a, b, c]⟩ x h (ix3 i j k) = x (ix2 p k) :=
  shapeCast_apply x h _ _ (by
    rw [Shape.rowMajor_val_two, Shape.rowMajor_val_three]
    show p.val * c + k.val = (i.val * b + j.val) * c + k.val
    rw [hp])

/-- An `[a, b, c]` array viewed as `[M, c]` reads, at row `i·b + j` and column `k`, the operand at `(i, j, k)`. -/
theorem shapeCast_abc_Mc_apply {a b c M : ℕ} (x : (⟨3, ![a, b, c]⟩ : Shape).Idx → α)
    (h : (⟨3, ![a, b, c]⟩ : Shape).ShapeCasts ⟨2, ![M, c]⟩) (i : Fin a) (j : Fin b) (k : Fin c) (p : Fin M)
    (hp : p.val = i.val * b + j.val) :
    shapeCast ⟨2, ![M, c]⟩ x h (ix2 p k) = x (ix3 i j k) :=
  shapeCast_apply x h _ _ (by
    rw [Shape.rowMajor_val_two, Shape.rowMajor_val_three]
    show (i.val * b + j.val) * c + k.val = p.val * c + k.val
    rw [hp])

/-- An `[a, c]` array given a unit middle axis reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_two, Shape.rowMajor_val_three]
    show i.val * c + k.val = (i.val * 1 + u.val) * c + k.val
    rw [hu, Nat.mul_one, Nat.add_zero])

/-- An `[a, 1, c]` array repeated along its middle axis reads, at `(i, j, k)`, the operand at `(i, 0, k)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array repeated along its leading axis reads, at `(i, j, k)`, the operand at `(0, j, k)`. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

end Cert.LibReshape
-- ==== Proof.KProj.lean ====
/-
  The kernel's fused projection, read at an index.

  The five models' 256 rows are stacked into one `[1280, 1024]` matrix (row `m · 256 + a` is row `a` of model
  `m`), multiplied by one `[1024, 1024]` weight matrix whose first 512 columns give the queries and last 512 the
  values, a bias row is added, and the product is cut back into five `[256, 1024]` slabs.  So entry `(m, a, n)`
  is `∑ k, x m a k · W k n + bias n`; the query block of model `m` is its columns `0 … 511`, the value block its
  columns `512 … 1023`, and the variance column of model `m` is column `m` of the `[256, 5]` variance block.
-/
import proofs.«106329_j27530740367910_2_alg».proof.Proof.Gen.KernelIdeal.Skeleton
import proofs.«106329_j27530740367910_2_alg».proof.Proof.KLayout
import proofs.«106329_j27530740367910_2_alg».proof.Proof.LibReshape

noncomputable section

namespace Cert.Attn.Ker

open Idealize.ShloMosaic Idealize.ShloMosaic.ValueIdx Cert.KernelIdeal Cert.KernelIdeal.Gen

/-- On the rows axis the left operand is read at the result's row. -/
theorem lhsRow_val (i : S1280x1024.Idx) (q : dot_S1280x1024_S1024x1024_S1280x1024_1_0_0_1_n_n.contr.Idx) : (dot_S1280x1024_S1024x1024_S1280x1024_1_0_0_1_n_n.lhsIdx i q 0).val = (i 0).val := by
  unfold DotDims.lhsIdx
  rw [dif_neg (show ¬(0 : Fin S1280x1024.rank) ∈ dot_S1280x1024_S1024x1024_S1280x1024_1_0_0_1_n_n.lhsBatch by decide),
    dif_pos (show (0 : Fin S1280x1024.rank) ∈ dot_S1280x1024_S1024x1024_S1280x1024_1_0_0_1_n_n.lhsNonContracting by decide)]
  rfl

/-- On the columns axis the right operand is read at the result's column. -/
theorem rhsCol_val (i : S1280x1024.Idx) (q : dot_S1280x1024_S1024x1024_S1280x1024_1_0_0_1_n_n.contr.Idx) : (dot_S1280x1024_S1024x1024_S1280x1024_1_0_0_1_n_n.rhsIdx i q 1).val = (i 1).val := by
  unfold DotDims.rhsIdx
  rw [dif_neg (show ¬(1 : Fin S1024x1024.rank) ∈ dot_S1280x1024_S1024x1024_S1280x1024_1_0_0_1_n_n.rhsBatch by decide),
    dif_pos (show (1 : Fin S1024x1024.rank) ∈ dot_S1280x1024_S1024x1024_S1280x1024_1_0_0_1_n_n.rhsNonContracting by decide)]
  rfl

/-- The stacked product into a zero accumulator at `(p, n)`: row `p` of the left matrix against column `n` of the
    right one. -/
theorem stackedProduct_apply (lhs : FVec Ideal S1280x1024 .bf16) (rhs : FVec Ideal S1024x1024 .bf16)
    (p : Fin 1280) (n : Fin 1024) :
    matmul dot_S1280x1024_S1024x1024_S1280x1024_1_0_0_1_n_n none lhs rhs (constant S1280x1024 .f32 0x00000000#32) (ix2 p n)
      = ∑ k : Fin 1024, lhs (ix2 p k) * rhs (ix2 k n) := by
  refine (Ideal.matmul_constant_zero_apply dot_S1280x1024_S1024x1024_S1280x1024_1_0_0_1_n_n none lhs rhs (ix2 p n)).trans ?_
  rw [← Equiv.sum_comp (ValueIdx.contrEquiv1 dot_S1280x1024_S1024x1024_S1280x1024_1_0_0_1_n_n 1024 rfl rfl).symm]
  refine Finset.sum_congr rfl fun k _ => ?_
  have hk := ValueIdx.contrEquiv1_symm_val dot_S1280x1024_S1024x1024_S1280x1024_1_0_0_1_n_n 1024 rfl rfl k
  have el : dot_S1280x1024_S1024x1024_S1280x1024_1_0_0_1_n_n.lhsIdx (ix2 p n) ((ValueIdx.contrEquiv1 dot_S1280x1024_S1024x1024_S1280x1024_1_0_0_1_n_n 1024 rfl rfl).symm k) = ix2 p k :=
    funext fun ax => Fin.ext (by
      match ax with
      | ⟨0, _⟩ => exact lhsRow_val _ _
      | ⟨1, _⟩ => exact (dot_S1280x1024_S1024x1024_S1280x1024_1_0_0_1_n_n.lhsIdx_val_of_single rfl _ _).trans hk)
  have er : dot_S1280x1024_S1024x1024_S1280x1024_1_0_0_1_n_n.rhsIdx (ix2 p n) ((ValueIdx.contrEquiv1 dot_S1280x1024_S1024x1024_S1280x1024_1_0_0_1_n_n 1024 rfl rfl).symm k) = ix2 k n :=
    funext fun ax => Fin.ext (by
      match ax with
      | ⟨0, _⟩ => exact (dot_S1280x1024_S1024x1024_S1280x1024_1_0_0_1_n_n.rhsIdx_val_of_single rfl _ _).trans hk
      | ⟨1, _⟩ => exact rhsCol_val _ _)
  rw [el, er]

/-- The fused projection at model `m`, row `a`, column `n`. -/
theorem fused_apply (W : FVec Ideal S1024x1024 .bf16) (bias : FVec Ideal S1024 .f32) (X : FVec Ideal S5x256x1024 .f32)
    (m : Fin 5) (a : Fin 256) (n : Fin 1024) :
    k0_pay2 (F := Ideal) W bias X (ix3 m a n) = (∑ k : Fin 1024, X (ix3 m a k) * W (ix2 k n)) + bias (ix1 n) := by
  have hp : m.val * 256 + a.val < 1280 := by have := m.isLt; have := a.isLt; omega
  unfold k0_pay2
  rw [Cert.LibReshape.shapeCast_Mc_abc_apply _ _ m a n ⟨m.val * 256 + a.val, hp⟩ rfl, addf_apply,
    stackedProduct_apply, broadcastTo_1b_ab_apply, shapeCast_a_1a_apply, shapeCast_self, shapeCast_self]
  refine congrArg (· + bias (ix1 n)) (Finset.sum_congr rfl fun k _ => ?_)
  rw [truncf_apply, Cert.LibReshape.shapeCast_abc_Mc_apply _ _ m a k ⟨m.val * 256 + a.val, hp⟩ rfl]

end Cert.Attn.Ker

end
-- ==== Proof.KBlock.lean ====
/-
  What one grid point leaves in its result block, as one function of the four input blocks.

  From the fused projection come five query blocks (columns `0 … 511` of the five slabs) and five value blocks
  (columns `512 … 1023`); the variance block gives five columns.  The fifteen score columns of the upper triangle
  are each "inner product of two query blocks less half the sum of two variance columns"; result block `i` is the
  softmax row over the five scores `s (min i j) (max i j)`, `j = 0 … 4`, applied to the five value blocks, and is
  stored at columns `512 · i … 512 · i + 511`.  So entry `(a, 512 · i + c)` of the staging buffer is the row
  formula of model `i` at lane `c`, over row `a`'s queries, values and variances.
-/
import proofs.«106329_j27530740367910_2_alg».proof.Proof.Gen.KernelIdeal.Frame
import proofs.«106329_j27530740367910_2_alg».proof.Proof.Spec
import proofs.«106329_j27530740367910_2_alg».proof.Proof.KRow
import proofs.«106329_j27530740367910_2_alg».proof.Proof.KProj

noncomputable section

namespace Cert.Attn.Ker

open Idealize.ShloMosaic Idealize.ShloMosaic.ValueIdx Cert.KernelIdeal Cert.KernelIdeal.Gen

/-- Lane `c` among the query columns, and among the value columns, of the fused projection. -/
def lo (c : Fin 512) : Fin 1024 := ⟨c.val, by have := c.isLt; omega⟩
def hi (c : Fin 512) : Fin 1024 := ⟨512 + c.val, by have := c.isLt; omega⟩

/-- A `[256, 512]` window of one slab of a `[5, 256, 1024]` array, with the slab's unit axis dropped, reads at
    `(a, c)` the array at `(m, a, n)`. -/
theorem slab_apply (R : FVec Ideal S5x256x1024 .f32) (o0 o2 : ℕ) (hs : S5x256x1024.Slices ![o0, 0, o2] S1x256x512)
    (hc : S1x256x512.ShapeCasts S256x512) (a : Fin 256) (c : Fin 512) (m : Fin 5) (n : Fin 1024)
    (hm : m.val = o0 + (0 : Fin 1).val) (hn : n.val = o2 + c.val) :
    shapeCast S256x512 (extractStridedSlice S1x256x512 ![o0, 0, o2] R hs) hc (ix2 a c) = R (ix3 m a n) := by
  rw [shapeCast_1ab_ab_apply, Lay.slice3_ends_apply o0 o2 R hs 0 a c m n hm hn]

/-- One column of the `[256, 5]` variance block, kept as a `[256, 1]` column, reads at `(a, u)` the block at `(a, m)`. -/
theorem varCol_apply (x1 : FVec Ideal S256x5 .f32) (o : ℕ) (hs : S256x5.Slices ![0, o] S256x1) (a : Fin 256) (u : Fin 1)
    (m : Fin 5) (hm : m.val = o + u.val) :
    extractStridedSlice S256x1 ![0, o] (k0_pay3 (F := Ideal) x1) hs (ix2 a u) = x1 (ix2 a m) := by
  rw [slice2_axis1_apply o _ hs a u m hm]
  unfold k0_pay3
  rw [shapeCast_self]

section Block

variable (x0 : FVec Ideal S5x256x1024 .f32) (x1 : FVec Ideal S256x5 .f32) (x2 : FVec Ideal S1024x1024 .bf16)
  (x3 : FVec Ideal S1024 .f32)

/-- The five query blocks, the five value blocks and the five variance columns the body computes. -/
def Qb : Fin 5 → FVec Ideal S256x512 .f32 := ![k0_pay4 x2 x3 x0, k0_pay5 x2 x3 x0, k0_pay6 x2 x3 x0, k0_pay7 x2 x3 x0, k0_pay8 x2 x3 x0]
def Vb : Fin 5 → FVec Ideal S256x512 .f32 := ![k0_pay9 x2 x3 x0, k0_pay10 x2 x3 x0, k0_pay11 x2 x3 x0, k0_pay12 x2 x3 x0, k0_pay13 x2 x3 x0]
def Pb : Fin 5 → FVec Ideal S256x1 .f32 := ![k0_pay14 x1, k0_pay15 x1, k0_pay16 x1, k0_pay17 x1, k0_pay18 x1]

/-- Row `a` of the block: its five query vectors, five value vectors and five variances. -/
def qBlk (a : Fin 256) : Fin 5 → Fin 512 → EReal :=
  fun m c => (∑ k : Fin 1024, x0 (ix3 m a k) * x2 (ix2 k (lo c))) + x3 (ix1 (lo c))
def vBlk (a : Fin 256) : Fin 5 → Fin 512 → EReal :=
  fun m c => (∑ k : Fin 1024, x0 (ix3 m a k) * x2 (ix2 k (hi c))) + x3 (ix1 (hi c))
def pvBlk (a : Fin 256) : Fin 5 → EReal := fun m => x1 (ix2 a m)

theorem Qb_apply (m : Fin 5) (a : Fin 256) (c : Fin 512) : Qb x0 x2 x3 m (ix2 a c) = qBlk x0 x2 x3 a m c := by
  have key : ∀ (o0 : ℕ) (hs : S5x256x1024.Slices ![o0, 0, 0] S1x256x512) (hc : S1x256x512.ShapeCasts S256x512),
      o0 = m.val →
      shapeCast S256x512 (extractStridedSlice S1x256x512 ![o0, 0, 0] (k0_pay2 (F := Ideal) x2 x3 x0) hs) hc (ix2 a c)
        = qBlk x0 x2 x3 a m c := by
    intro o0 hs hc ho
    rw [slab_apply _ o0 0 hs hc a c m (lo c) (by show m.val = o0 + 0; omega) (by show c.val = 0 + c.val; omega)]
    exact fused_apply x2 x3 x0 m a (lo c)
  match m with
  | ⟨0, _⟩ => exact key 0 slices_S5x256x1024_o0_0_0_S1x256x512 shapeCasts_S1x256x512_S256x512 rfl
  | ⟨1, _⟩ => exact key 1 slices_S5x256x1024_o1_0_0_S1x256x512 shapeCasts_S1x256x512_S256x512 rfl
  | ⟨2, _⟩ => exact key 2 slices_S5x256x1024_o2_0_0_S1x256x512 shapeCasts_S1x256x512_S256x512 rfl
  | ⟨3, _⟩ => exact key 3 slices_S5x256x1024_o3_0_0_S1x256x512 shapeCasts_S1x256x512_S256x512 rfl
  | ⟨4, _⟩ => exact key 4 slices_S5x256x1024_o4_0_0_S1x256x512 shapeCasts_S1x256x512_S256x512 rfl

theorem Vb_apply (m : Fin 5) (a : Fin 256) (c : Fin 512) : Vb x0 x2 x3 m (ix2 a c) = vBlk x0 x2 x3 a m c := by
  have key : ∀ (o0 : ℕ) (hs : S5x256x1024.Slices ![o0, 0, 512] S1x256x512) (hc : S1x256x512.ShapeCasts S256x512),
      o0 = m.val →
      shapeCast S256x512 (extractStridedSlice S1x256x512 ![o0, 0, 512] (k0_pay2 (F := Ideal) x2 x3 x0) hs) hc (ix2 a c)
        = vBlk x0 x2 x3 a m c := by
    intro o0 hs hc ho
    rw [slab_apply _ o0 512 hs hc a c m (hi c) (by show m.val = o0 + 0; omega) (by show 512 + c.val = 512 + c.val; rfl)]
    exact fused_apply x2 x3 x0 m a (hi c)
  match m with
  | ⟨0, _⟩ => exact key 0 slices_S5x256x1024_o0_0_512_S1x256x512 shapeCasts_S1x256x512_S256x512 rfl
  | ⟨1, _⟩ => exact key 1 slices_S5x256x1024_o1_0_512_S1x256x512 shapeCasts_S1x256x512_S256x512 rfl
  | ⟨2, _⟩ => exact key 2 slices_S5x256x1024_o2_0_512_S1x256x512 shapeCasts_S1x256x512_S256x512 rfl
  | ⟨3, _⟩ => exact key 3 slices_S5x256x1024_o3_0_512_S1x256x512 shapeCasts_S1x256x512_S256x512 rfl
  | ⟨4, _⟩ => exact key 4 slices_S5x256x1024_o4_0_512_S1x256x512 shapeCasts_S1x256x512_S256x512 rfl

theorem Pb_apply (m : Fin 5) (a : Fin 256) (u : Fin 1) : Pb x1 m (ix2 a u) = pvBlk x1 a m := by
  have hu : u.val = 0 := by omega
  match m with
  | ⟨0, _⟩ => exact varCol_apply x1 0 slices_S256x5_o0_0_S256x1 a u 0 (by show 0 = 0 + u.val; omega)
  | ⟨1, _⟩ => exact varCol_apply x1 1 slices_S256x5_o0_1_S256x1 a u 1 (by show 1 = 1 + u.val; omega)
  | ⟨2, _⟩ => exact varCol_apply x1 2 slices_S256x5_o0_2_S256x1 a u 2 (by show 2 = 2 + u.val; omega)
  | ⟨3, _⟩ => exact varCol_apply x1 3 slices_S256x5_o0_3_S256x1 a u 3 (by show 3 = 3 + u.val; omega)
  | ⟨4, _⟩ => exact varCol_apply x1 4 slices_S256x5_o0_4_S256x1 a u 4 (by show 4 = 4 + u.val; omega)

/-- The score column of models `i`, `j` at row `a` is the score of row `a`'s data. -/
theorem scoreEntry (i j : Fin 5) (a : Fin 256) :
    k0_pay22 (F := Ideal) (Qb x0 x2 x3 i) (Qb x0 x2 x3 j) (Pb x1 i) (Pb x1 j) (ix2 a 0)
      = Cert.Attn.score (qBlk x0 x2 x3 a) (pvBlk x1 a) i j := by
  rw [scoreCol_apply, Pb_apply, Pb_apply]
  unfold Cert.Attn.score
  refine congrArg (· - Cert.Attn.half * (pvBlk x1 a i + pvBlk x1 a j)) (Finset.sum_congr rfl fun c _ => ?_)
  rw [Qb_apply, Qb_apply]

end Block

end Cert.Attn.Ker

end
-- ==== Proof.KCanon.lean ====
/-
  The result block as one function.

  Result row `i` reads the symmetric score matrix through its upper triangle: its score against model `j` is the
  column computed for the pair `(min i j, max i j)`.  The five rows are stored side by side, row `i` at columns
  `512 · i … 512 · i + 511`; the five column ranges tile the `[256, 2560]` staging buffer, so the buffer after the
  body is, at `(a, n)`, row `n / 512` at lane `n % 512`.
-/
import proofs.«106329_j27530740367910_2_alg».proof.Proof.KBlock

noncomputable section

namespace Cert.Attn.Ker

open Idealize.ShloMosaic Idealize.ShloMosaic.ValueIdx Cert.KernelIdeal Cert.KernelIdeal.Gen

theorem zeros1 : (![0] : Fin 1 → ℕ) = fun _ => 0 := funext fun a => match a with | ⟨0, _⟩ => rfl
theorem zeros2 : (![0, 0] : Fin 2 → ℕ) = fun _ => 0 := funext fun a => match a with | ⟨0, _⟩ => rfl | ⟨1, _⟩ => rfl
theorem zeros3 : (![0, 0, 0] : Fin 3 → ℕ) = fun _ => 0 :=
  funext fun a => match a with | ⟨0, _⟩ => rfl | ⟨1, _⟩ => rfl | ⟨2, _⟩ => rfl

section Block

variable (x0 : FVec Ideal S5x256x1024 .f32) (x1 : FVec Ideal S256x5 .f32) (x2 : FVec Ideal S1024x1024 .bf16)
  (x3 : FVec Ideal S1024 .f32)

/-- The score column of the pair `(i, j)`, and the same read through the upper triangle. -/
def Sc (i j : Fin 5) : FVec Ideal S256x1 .f32 :=
  k0_pay22 (F := Ideal) (Qb x0 x2 x3 i) (Qb x0 x2 x3 j) (Pb x1 i) (Pb x1 j)
def Su (i j : Fin 5) : FVec Ideal S256x1 .f32 := if i ≤ j then Sc x0 x1 x2 x3 i j else Sc x0 x1 x2 x3 j i

theorem Su_apply (i j : Fin 5) (a : Fin 256) :
    Su x0 x1 x2 x3 i j (ix2 a 0) = Cert.Attn.scoreK (qBlk x0 x2 x3 a) (pvBlk x1 a) i j := by
  unfold Su Cert.Attn.scoreK
  split
  · exact scoreEntry x0 x1 x2 x3 i j a
  · exact scoreEntry x0 x1 x2 x3 j i a

/-- Result row `i`: the softmax of its five scores applied to the five value blocks. -/
def rowBlk (i : Fin 5) : FVec Ideal S256x512 .f32 :=
  k0_pay39 (F := Ideal) (Vb x0 x2 x3 0) (Vb x0 x2 x3 1) (Vb x0 x2 x3 2) (Vb x0 x2 x3 3) (Vb x0 x2 x3 4)
    (Su x0 x1 x2 x3 i 0) (Su x0 x1 x2 x3 i 1) (Su x0 x1 x2 x3 i 2) (Su x0 x1 x2 x3 i 3) (Su x0 x1 x2 x3 i 4)

theorem rowBlk_apply (i : Fin 5) (a : Fin 256) (c : Fin 512) :
    rowBlk x0 x1 x2 x3 i (ix2 a c)
      = Cert.Attn.outK (fun j => Cert.Attn.scoreK (qBlk x0 x2 x3 a) (pvBlk x1 a) i j) (fun k => vBlk x0 x2 x3 a k c) := by
  unfold rowBlk
  rw [softmaxRow_apply]
  have hs : (![Su x0 x1 x2 x3 i 0 (ix2 a 0), Su x0 x1 x2 x3 i 1 (ix2 a 0), Su x0 x1 x2 x3 i 2 (ix2 a 0), Su x0 x1 x2 x3 i 3 (ix2 a 0),
      Su x0 x1 x2 x3 i 4 (ix2 a 0)] : Fin 5 → EReal) = fun j => Cert.Attn.scoreK (qBlk x0 x2 x3 a) (pvBlk x1 a) i j := by
    funext j
    match j with
    | ⟨0, _⟩ => exact Su_apply x0 x1 x2 x3 i 0 a
    | ⟨1, _⟩ => exact Su_apply x0 x1 x2 x3 i 1 a
    | ⟨2, _⟩ => exact Su_apply x0 x1 x2 x3 i 2 a
    | ⟨3, _⟩ => exact Su_apply x0 x1 x2 x3 i 3 a
    | ⟨4, _⟩ => exact Su_apply x0 x1 x2 x3 i 4 a
  have hv : (![Vb x0 x2 x3 0 (ix2 a c), Vb x0 x2 x3 1 (ix2 a c), Vb x0 x2 x3 2 (ix2 a c), Vb x0 x2 x3 3 (ix2 a c),
      Vb x0 x2 x3 4 (ix2 a c)] : Fin 5 → EReal) = fun k => vBlk x0 x2 x3 a k c := by
    funext k
    match k with
    | ⟨0, _⟩ => exact Vb_apply x0 x2 x3 0 a c
    | ⟨1, _⟩ => exact Vb_apply x0 x2 x3 1 a c
    | ⟨2, _⟩ => exact Vb_apply x0 x2 x3 2 a c
    | ⟨3, _⟩ => exact Vb_apply x0 x2 x3 3 a c
    | ⟨4, _⟩ => exact Vb_apply x0 x2 x3 4 a c
  rw [hs, hv]

/-- The staging buffer after the body: five stores, row `i` through the rectangle at column offset `512 · i`. -/
theorem out_eq_rows :
    out0_4 (F := Ideal) x0 x1 x2 x3
      = View.canon ([⟨r0_8, rowBlk x0 x1 x2 x3 4⟩, ⟨r0_7, rowBlk x0 x1 x2 x3 3⟩, ⟨r0_6, rowBlk x0 x1 x2 x3 2⟩, ⟨r0_5, rowBlk x0 x1 x2 x3 1⟩,
          ⟨r0_4, rowBlk x0 x1 x2 x3 0⟩] : List (View.Piece (Elt Ideal) S256x2560 .f32)) := by
  unfold out0_4
  simp only [View.ld_unit_zero (S := S1024x1024) zeros2, View.ld_unit_zero (S := S1024) zeros1,
    View.ld_unit_zero (S := S5x256x1024) zeros3, View.ld_unit_zero (S := S256x5) zeros2]
  rfl

/-- Entry `(a, n)` of the block: model `n / 512`'s row formula at lane `n % 512`, over row `a`'s data. -/
def blkOut (y : S256x2560.Idx) : EReal :=
  Cert.Attn.outK (fun j => Cert.Attn.scoreK (qBlk x0 x2 x3 (y 0)) (pvBlk x1 (y 0)) (Cert.Attn.colM (y 1)) j)
    (fun k => vBlk x0 x2 x3 (y 0) k (Cert.Attn.colC (y 1)))

/-- Row `i`, stored through the rectangle at column offset `o = 512 · i`, is the block's function under it. -/
theorem piece_eq (i : Fin 5) (o : ℕ) (ho : o = 512 * i.val)
    (inb : ∀ a, (![0, o] : Fin 2 → ℕ) a + S256x512.size a ≤ S256x2560.size a) (x : S256x512.Idx) :
    rowBlk x0 x1 x2 x3 i x = blkOut x0 x1 x2 x3 ((Rect.unit (s := S256x2560) ![0, o] S256x512.size inb).emb x) := by
  obtain ⟨a, c, rfl⟩ : ∃ (a : Fin 256) (c : Fin 512), x = ix2 a c := ⟨x 0, x 1, eq_ix2 x⟩
  rw [rowBlk_apply]
  unfold blkOut
  have hc := c.isLt
  have hi := i.isLt
  have h0 : ((Rect.unit (s := S256x2560) ![0, o] S256x512.size inb).emb (ix2 a c) 0 : Fin 256) = a :=
    Fin.ext (by show 0 + 1 * a.val = a.val; omega)
  have h1 : Cert.Attn.colM ((Rect.unit (s := S256x2560) ![0, o] S256x512.size inb).emb (ix2 a c) 1) = i :=
    Fin.ext (by show (o + 1 * c.val) / 512 = i.val; omega)
  have h2 : Cert.Attn.colC ((Rect.unit (s := S256x2560) ![0, o] S256x512.size inb).emb (ix2 a c) 1) = c :=
    Fin.ext (by show (o + 1 * c.val) % 512 = c.val; omega)
  rw [h0, h1, h2]

/-- What the body leaves in the result window's staging buffer is `blkOut` of the four input blocks. -/
theorem out_eq_blkOut : out0_4 (F := Ideal) x0 x1 x2 x3 = blkOut x0 x1 x2 x3 := by
  rw [out_eq_rows]
  funext y
  refine View.canon_apply_of_pieces (Val := Elt Ideal) (e := EltTy.f32) (blkOut x0 x1 x2 x3 : S256x2560.Idx → Elt Ideal EltTy.f32) _ ?_ y
    (cover0_4 _ _ _ _ _ y)
  intro p hp x
  simp only [List.mem_cons, List.not_mem_nil, or_false] at hp
  rcases hp with rfl | rfl | rfl | rfl | rfl
  · exact piece_eq x0 x1 x2 x3 4 2048 rfl inb_S256x2560_S256x512_0_2048 x
  · exact piece_eq x0 x1 x2 x3 3 1536 rfl inb_S256x2560_S256x512_0_1536 x
  · exact piece_eq x0 x1 x2 x3 2 1024 rfl inb_S256x2560_S256x512_0_1024 x
  · exact piece_eq x0 x1 x2 x3 1 512 rfl inb_S256x2560_S256x512_0_512 x
  · exact piece_eq x0 x1 x2 x3 0 0 rfl inb_S256x2560_S256x512_0_0 x

end Block

end Cert.Attn.Ker

end
-- ==== Proof.KHost.lean ====
/-
  The arrays the region finds, as functions of the arguments.

  Before the region the host transposes the variances (`[5, 16384] → [16384, 5]`), lays the transposes of the two
  weight matrices side by side (`[1024, 512]` twice, into `[1024, 1024]`: column `n < 512` of the result is row
  `n` of the query weights, column `512 + n` is row `n` of the value weights; the change of float format that
  follows is the identity on extended reals), and lays the two bias vectors end to end.
-/
import proofs.«106329_j27530740367910_2_alg».proof.Proof.Gen.KernelIdeal.Frame
import proofs.«106329_j27530740367910_2_alg».proof.Proof.KBlock
import Idealize.ShloMosaic.Lib.StableHlo.Run
import Idealize.ShloMosaic.Lib.ValueLayout

noncomputable section

namespace Cert.Attn.Ker

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ) (c : Dev nD)

/-- The variance window's array is the transposed variances. -/
theorem V_var : V m c main_v5 = transpose S16384x5 [1, 0] (m ((c : Thread nD τ).loc main_arg1)) transposes_S5x16384_S16384x5_1_0 := by
  unfold V; after_results

/-- The weight window's array: the two transposed weight matrices side by side (the format change is the identity). -/
theorem V_weights : (V m c main_v3 : FVec Ideal S1024x1024 .bf16)
    = truncf (F := Ideal) .bf16 (concatenate S1024x1024 1
        [⟨S1024x512, transpose S1024x512 [1, 0] (m ((c : Thread nD τ).loc main_arg2)) transposes_S512x1024_S1024x512_1_0⟩,
         ⟨S1024x512, transpose S1024x512 [1, 0] (m ((c : Thread nD τ).loc main_arg6)) transposes_S512x1024_S1024x512_1_0⟩]
        concatenates_S1024x512_S1024x512_S1024x1024_d1) bitsLt_bf16_f32 := by
  unfold V; after_results

/-- The bias window's array: the two bias vectors end to end. -/
theorem V_bias : V m c main_v4
    = concatenate S1024 0 [⟨S512, (m ((c : Thread nD τ).loc main_arg3))⟩, ⟨S512, (m ((c : Thread nD τ).loc main_arg7))⟩] concatenates_S512_S512_S1024_d0 := by
  unfold V; after_results

theorem var_at (b : Fin 16384) (mm : Fin 5) : V m c main_v5 (ix2 b mm) = (m ((c : Thread nD τ).loc main_arg1)) (ix2 mm b) := by
  rw [V_var]; exact transpose_ix2_apply _ _ b mm

theorem weights_lo (k : Fin 1024) (cc : Fin 512) : V m c main_v3 (ix2 k (lo cc)) = (m ((c : Thread nD τ).loc main_arg2)) (ix2 cc k) := by
  rw [V_weights, truncf_apply]
  refine (concatenate_pair_apply_left (t := S1024x1024) (s₁ := S1024x512) (s₂ := S1024x512) (1 : Fin 2) _ _ _ (ix2 k (lo cc)) rfl (ix2 k cc)
    (fun b => match b with | ⟨0, _⟩ => rfl | ⟨1, _⟩ => rfl)).trans ?_
  exact transpose_ix2_apply _ _ k cc

theorem weights_hi (k : Fin 1024) (cc : Fin 512) : V m c main_v3 (ix2 k (hi cc)) = (m ((c : Thread nD τ).loc main_arg6)) (ix2 cc k) := by
  rw [V_weights, truncf_apply]
  refine (concatenate_pair_apply_right (t := S1024x1024) (s₁ := S1024x512) (s₂ := S1024x512) (1 : Fin 2) _ _ _ (ix2 k (hi cc)) rfl rfl (ix2 k cc)
    (fun b => match b with | ⟨0, _⟩ => fun _ => rfl | ⟨1, _⟩ => fun h => absurd rfl h)
    (by show cc.val + 512 = 512 + cc.val; omega)).trans ?_
  exact transpose_ix2_apply _ _ k cc

theorem bias_lo (cc : Fin 512) : V m c main_v4 (ix1 (lo cc)) = (m ((c : Thread nD τ).loc main_arg3)) (ix1 cc) := by
  rw [V_bias]
  exact concatenate_pair_apply_left (t := S1024) (s₁ := S512) (s₂ := S512) (0 : Fin 1) _ _ _ (ix1 (lo cc)) rfl (ix1 cc)
    (fun b => match b with | ⟨0, _⟩ => rfl)

theorem bias_hi (cc : Fin 512) : V m c main_v4 (ix1 (hi cc)) = (m ((c : Thread nD τ).loc main_arg7)) (ix1 cc) := by
  rw [V_bias]
  exact concatenate_pair_apply_right (t := S1024) (s₁ := S512) (s₂ := S512) (0 : Fin 1) _ _ _ (ix1 (hi cc)) rfl rfl (ix1 cc)
    (fun b => match b with | ⟨0, _⟩ => fun h => absurd rfl h)
    (by show cc.val + 512 = 512 + cc.val; omega)

end Cert.Attn.Ker

end
-- ==== Proof.KFinal.lean ====
/-
  From blocks to the whole result array, and the kernel's run.

  Grid point `t` stages rows `256 · t … 256 · t + 255` of every model's features and of the transposed variances,
  and the whole weight and bias arrays; it writes back rows `256 · t … 256 · t + 255` of the result.  The block
  function of the staged blocks is therefore the whole-array function `kerOut` of the arguments, read through the
  result block; the 64 result blocks tile the 16384 rows, so after the run the result array is `kerOut`.
-/
import proofs.«106329_j27530740367910_2_alg».proof.Proof.Gen.KernelIdeal.Value
import proofs.«106329_j27530740367910_2_alg».proof.Proof.KCanon
import proofs.«106329_j27530740367910_2_alg».proof.Proof.KHost

noncomputable section

namespace Cert.Attn.Ker

open Idealize.ShloMosaic Idealize.ShloMosaic.ValueIdx Idealize.ShloMosaic.TcCoe Idealize.SL.Sem
open Cert.KernelIdeal Cert.KernelIdeal.Gen
open Idealize.ShloMosaic.Pipeline (Dat)

/-- If the staged blocks hold, at row `y 0`, the arguments' entries of batch row `i 0` (the weights and biases the
    two halves of the fused arrays), the block function at `y` is the whole-array function at `i` in the same column. -/
theorem blkOut_eq_kerOut (X0 : FVec Ideal S5x256x1024 .f32) (X1 : FVec Ideal S256x5 .f32)
    (X2 : FVec Ideal S1024x1024 .bf16) (X3 : FVec Ideal S1024 .f32)
    (a0 : Cert.Attn.TFeat.Idx → EReal) (a1 : Cert.Attn.TPv.Idx → EReal) (a2 : Cert.Attn.TW.Idx → EReal)
    (a3 : Cert.Attn.TB.Idx → EReal) (a6 : Cert.Attn.TW.Idx → EReal) (a7 : Cert.Attn.TB.Idx → EReal)
    (y : S256x2560.Idx) (i : Cert.Attn.TOut.Idx)
    (h0 : ∀ (mm : Fin 5) (k : Fin 1024), X0 (ix3 mm (y 0) k) = a0 (ix3 mm (i 0) k))
    (h1 : ∀ mm : Fin 5, X1 (ix2 (y 0) mm) = a1 (ix2 mm (i 0)))
    (h2l : ∀ (k : Fin 1024) (cc : Fin 512), X2 (ix2 k (lo cc)) = a2 (ix2 cc k))
    (h2h : ∀ (k : Fin 1024) (cc : Fin 512), X2 (ix2 k (hi cc)) = a6 (ix2 cc k))
    (h3l : ∀ cc : Fin 512, X3 (ix1 (lo cc)) = a3 (ix1 cc))
    (h3h : ∀ cc : Fin 512, X3 (ix1 (hi cc)) = a7 (ix1 cc))
    (hcol : i 1 = y 1) :
    blkOut X0 X1 X2 X3 y = Cert.Attn.kerOut a0 a1 a2 a3 a6 a7 i := by
  have hq : qBlk X0 X2 X3 (y 0) = Cert.Attn.qRow a0 a2 a3 (i 0) := by
    funext mm cc
    unfold qBlk Cert.Attn.qRow Cert.Attn.proj
    rw [h3l]
    refine congrArg (· + a3 (ix1 cc)) (Finset.sum_congr rfl fun k _ => ?_)
    rw [h0, h2l, mul_comm]
  have hv : vBlk X0 X2 X3 (y 0) = Cert.Attn.vRow a0 a6 a7 (i 0) := by
    funext mm cc
    unfold vBlk Cert.Attn.vRow Cert.Attn.proj
    rw [h3h]
    refine congrArg (· + a7 (ix1 cc)) (Finset.sum_congr rfl fun k _ => ?_)
    rw [h0, h2h, mul_comm]
  have hp : pvBlk X1 (y 0) = Cert.Attn.pvRow a1 (i 0) := by
    funext mm
    exact h1 mm
  unfold blkOut Cert.Attn.kerOut
  rw [hq, hv, hp, hcol]

section Run

variable (m : (ℓ : Loc nD τ sig) → Buf (Elt Ideal) ℓ) (ρ : Dev nD → PrngReg)

/-- The whole result array as a function of the arguments as launched. -/
def kerOutAt (c : Dev nD) : S16384x2560.Idx → EReal := Cert.Attn.kerOut (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7))

/-- The printed index maps over the 64 grid points: the feature, variance and result windows move along the batch
    axis with the point, the weight and bias windows stay. -/
theorem idx_facts : ∀ t : Fin cfg0.N,
    win0_0.index t (0 : Fin 3) = 0 ∧ win0_0.index t (1 : Fin 3) = t.val ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-- What point `t` writes back is block `t` of `kerOut` of the arguments. -/
theorem flushed_eq (c : Dev nD) (t : Fin cfg0.N) :
    (dats m 0 c).flushed 4 t = ((cfg0.win 4).blk t).view.read (Elt Ideal) (kerOutAt m c) := by
  rw [Cert.KernelIdeal.Value.flushed4]
  obtain ⟨e00, e01, e02, e10, e11, e20, e21, e30, e40, e41⟩ := idx_facts t
  funext y
  show out0_4 (F := Ideal) (iblk m c 0 t) (iblk m c 1 t) (iblk m c 2 t) (iblk m c 3 t) y = kerOutAt m c (((cfg0.win 4).blk t).view.emb y)
  rw [out_eq_blkOut (iblk m c 0 t) (iblk m c 1 t) (iblk m c 2 t) (iblk m c 3 t)]
  unfold kerOutAt
  refine blkOut_eq_kerOut (iblk m c 0 t) (iblk m c 1 t) (iblk m c 2 t) (iblk m c 3 t) _ _ _ _ _ _ y (((cfg0.win 4).blk t).view.emb y) ?_ ?_ ?_ ?_ ?_ ?_ ?_
  · intro mm k
    show V m c main_arg0 (((cfg0.win 0).blk t).view.emb (ix3 mm (y 0) k)) = _
    rw [V_main_arg0]
    refine congrArg _ (funext fun ax => Fin.ext ?_)
    match ax with
    | ⟨0, _⟩ => show win0_0.index t (0 : Fin 3) * 5 + 1 * mm.val = mm.val; omega
    | ⟨1, _⟩ =>
      show win0_0.index t (1 : Fin 3) * 256 + 1 * (y 0).val = win0_4.index t (0 : Fin 2) * 256 + 1 * (y 0).val
      omega
    | ⟨2, _⟩ => show win0_0.index t (2 : Fin 3) * 1024 + 1 * k.val = k.val; omega
  · intro mm
    show V m c main_v5 (((cfg0.win 1).blk t).view.emb (ix2 (y 0) mm)) = _
    refine Eq.trans (congrArg _ (funext fun ax => Fin.ext ?_)) (var_at m c (((cfg0.win 4).blk t).view.emb y 0) mm)
    match ax with
    | ⟨0, _⟩ =>
      show win0_1.index t (0 : Fin 2) * 256 + 1 * (y 0).val = win0_4.index t (0 : Fin 2) * 256 + 1 * (y 0).val
      omega
    | ⟨1, _⟩ => show win0_1.index t (1 : Fin 2) * 5 + 1 * mm.val = mm.val; omega
  · intro k cc
    show V m c main_v3 (((cfg0.win 2).blk t).view.emb (ix2 k (lo cc))) = _
    refine Eq.trans (congrArg _ (funext fun ax => Fin.ext ?_)) (weights_lo m c k cc)
    match ax with
    | ⟨0, _⟩ => show win0_2.index t (0 : Fin 2) * 1024 + 1 * k.val = k.val; omega
    | ⟨1, _⟩ => show win0_2.index t (1 : Fin 2) * 1024 + 1 * (lo cc).val = (lo cc).val; omega
  · intro k cc
    show V m c main_v3 (((cfg0.win 2).blk t).view.emb (ix2 k (hi cc))) = _
    refine Eq.trans (congrArg _ (funext fun ax => Fin.ext ?_)) (weights_hi m c k cc)
    match ax with
    | ⟨0, _⟩ => show win0_2.index t (0 : Fin 2) * 1024 + 1 * k.val = k.val; omega
    | ⟨1, _⟩ => show win0_2.index t (1 : Fin 2) * 1024 + 1 * (hi cc).val = (hi cc).val; omega
  · intro cc
    show V m c main_v4 (((cfg0.win 3).blk t).view.emb (ix1 (lo cc))) = _
    refine Eq.trans (congrArg _ (funext fun ax => Fin.ext ?_)) (bias_lo m c cc)
    match ax with
    | ⟨0, _⟩ => show win0_3.index t (0 : Fin 1) * 1024 + 1 * (lo cc).val = (lo cc).val; omega
  · intro cc
    show V m c main_v4 (((cfg0.win 3).blk t).view.emb (ix1 (hi cc))) = _
    refine Eq.trans (congrArg _ (funext fun ax => Fin.ext ?_)) (bias_hi m c cc)
    match ax with
    | ⟨0, _⟩ => show win0_3.index t (0 : Fin 1) * 1024 + 1 * (hi cc).val = (hi cc).val; omega
  · refine Fin.ext ?_
    show win0_4.index t (1 : Fin 2) * 2560 + 1 * (y 1).val = (y 1).val
    omega

/-- An index of the result array is in point `t`'s block iff each coordinate is in the block's range. -/
theorem mem_blk (t : Fin cfg0.N) (i : S16384x2560.Idx) :
    i ∈ ((cfg0.win 4).blk t).view.set ↔ ∀ a : Fin 2, win0_4.index t a * S256x2560.size a ≤ (i a).val
      ∧ (i a).val < win0_4.index t a * S256x2560.size a + S256x2560.size a := by
  show i ∈ ((View.whole main_v6).slice (win0_4.rect t)).set ↔ _
  rw [View.set_slice_whole, Rect.mem_set_unit]
  exact Iff.rfl

/-- Every index of the result array is in the block of the point its row falls in. -/
theorem cover (i : S16384x2560.Idx) :
    ∃ t : Fin cfg0.N, (cfg0.win 4).flush t = true ∧ i ∈ ((cfg0.win 4).blk t).view.set := by
  have hi0 : (i 0).val < 16384 := (i 0).isLt
  have hi1 : (i 1).val < 2560 := (i 1).isLt
  have hN : cfg0.N = 64 := N_0
  have ht : (i 0).val / 256 < cfg0.N := by rw [hN]; omega
  obtain ⟨-, -, -, -, -, -, -, -, e40, e41⟩ := idx_facts ⟨(i 0).val / 256, ht⟩
  refine ⟨⟨(i 0).val / 256, ht⟩, flush0_4 _, ?_⟩
  rw [mem_blk]
  intro a
  match a with
  | ⟨0, _⟩ =>
    show win0_4.index ⟨(i 0).val / 256, ht⟩ (0 : Fin 2) * 256 ≤ (i 0).val
      ∧ (i 0).val < win0_4.index ⟨(i 0).val / 256, ht⟩ (0 : Fin 2) * 256 + 256
    rw [e40]
    show (i 0).val / 256 * 256 ≤ (i 0).val ∧ (i 0).val < (i 0).val / 256 * 256 + 256
    omega
  | ⟨1, _⟩ =>
    show win0_4.index ⟨(i 0).val / 256, ht⟩ (1 : Fin 2) * 2560 ≤ (i 1).val
      ∧ (i 1).val < win0_4.index ⟨(i 0).val / 256, ht⟩ (1 : Fin 2) * 2560 + 2560
    rw [e41]
    omega

/-- After the run the result array is `kerOut` of the arguments. -/
theorem final (c : Dev nD) : (dats m 0 c).arrAt 4 cfg0.N = kerOutAt m c :=
  (dats m 0 c).arrAt_eq_of_cover 4 (kerOutAt m c) (fun t _ => flushed_eq m c t) cover

/-- The kernel's run: it terminates without a fault, the result array holds `kerOut` of the arguments, and the
    arguments are unchanged. -/
theorem run : θ_run defs (onTc (τ := τ) (main (F := Ideal))) ⟨m, fun _ => 0, ρ⟩ fun r => ∀ c : Dev nD,
      r.2.mem ((c : Thread nD τ).loc main_v6) = kerOutAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩)
    (Cert.KernelIdeal.Value.run_blocks m ρ)

end Run

end Cert.Attn.Ker

end
-- ==== Proof.lean ====
/-
  Five models attend to one another, batch row by batch row: each model projects the row's features to a query
  and a value vector (the keys are the queries), model `i` scores model `j` by the inner product of their queries
  less half the sum of their predicted variances, a softmax over `j` weighs the five value vectors, and the five
  weighted vectors are laid side by side.

  The kernel and the reference compute this in different arrangements.  The kernel stacks the five models' rows
  into one product against the query and value weights laid side by side, reads the symmetric score matrix
  through its upper triangle, and divides the weighted sum of exponentials once by their total; the reference
  forms each projection by its own contraction, every score by its own inner product, and normalises each
  exponential before the weighted sum.  Over the extended reals a change of float format is the identity and a
  product into a zero accumulator is the plain contraction, so the two agree as soon as
      (e₀ v₀ + … + e₄ v₄) / d = ∑ k, (e_k / d) · v_k ,
  which holds when the `e_k`, `v_k` are real and `d` is a nonzero real: the precondition (every input finite) makes
  every projection, score and exponential real and the total of exponentials positive.

  `Spec` states both arrangements once (`kerOut`, `refOut`); `Law` proves them equal on real inputs; `Finite`
  reads the inputs' realness off the precondition; `RefSpec` shows the reference's result is `refOut`; the `K…`
  modules show the kernel's result array is `kerOut` (the body's arithmetic at an index, the five stored pieces as
  one block function, the 64 blocks as one array).
-/
import proofs.«106329_j27530740367910_2_alg».proof.Defs
import proofs.«106329_j27530740367910_2_alg».proof.Proof.Gen.Kernel
import proofs.«106329_j27530740367910_2_alg».proof.Proof.Gen.Kernel.Skeleton
import proofs.«106329_j27530740367910_2_alg».proof.Proof.Gen.Kernel.Launch
import proofs.«106329_j27530740367910_2_alg».proof.Proof.Gen.Kernel.Points
import proofs.«106329_j27530740367910_2_alg».proof.Proof.Gen.Kernel.Frame
import proofs.«106329_j27530740367910_2_alg».proof.Proof.Gen.KernelIdeal
import proofs.«106329_j27530740367910_2_alg».proof.Proof.Gen.KernelIdeal.Skeleton
import proofs.«106329_j27530740367910_2_alg».proof.Proof.Gen.KernelIdeal.Launch
import proofs.«106329_j27530740367910_2_alg».proof.Proof.Gen.KernelIdeal.Points
import proofs.«106329_j27530740367910_2_alg».proof.Proof.Gen.KernelIdeal.Frame
import proofs.«106329_j27530740367910_2_alg».proof.Proof.Gen.ReferenceIdeal
import proofs.«106329_j27530740367910_2_alg».proof.Proof.Gen.Pre_finite_inputs
import proofs.«106329_j27530740367910_2_alg».proof.Proof.Gen.KernelIdeal.Value
import proofs.«106329_j27530740367910_2_alg».proof.Proof.Gen.ReferenceIdeal.Run
import proofs.«106329_j27530740367910_2_alg».proof.Proof.Gen.ReferenceIdeal.Read
import proofs.«106329_j27530740367910_2_alg».proof.Proof.Spec
import proofs.«106329_j27530740367910_2_alg».proof.Proof.Law
import proofs.«106329_j27530740367910_2_alg».proof.Proof.Finite
import proofs.«106329_j27530740367910_2_alg».proof.Proof.RefSpec
import proofs.«106329_j27530740367910_2_alg».proof.Proof.KFinal
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference's run, with its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result array at `kerOut` of the
    arguments: the kernel by its blocks, the reference because its result is `refOut`, which on finite inputs is
    `kerOut`. -/
theorem algebraic : Cert.algebraic_KernelIdeal_ReferenceIdeal := by
  intro m ρ m' ρ' hpre hagree
  refine ⟨fun c => Cert.Attn.Ker.kerOutAt m c, Cert.Attn.Ker.run m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, _, _, g6, g7⟩ := hagree c
  obtain ⟨r0, r1, r2, r3, r6, r7⟩ := Cert.Attn.Fin.real_of_pre _ _ _ _ _ _ _ _ (hpre c)
  rw [Cert.ReferenceIdeal.Read.val_main_v32_eq, g0, g1, g2, g3, g6, g7]
  unfold Cert.Attn.Ker.kerOutAt
  exact (Cert.Attn.Ref.ref_eq _ _ _ _ _ _).trans (Cert.Attn.refOut_eq_kerOut _ _ _ _ _ _ r0 r1 r2 r3 r6 r7)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
